-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100x81 : Shape := ⟨3, ![4, 100, 81]⟩
abbrev S4x100x256x256 : Shape := ⟨4, ![4, 100, 256, 256]⟩
abbrev S4x50 : Shape := ⟨2, ![4, 50]⟩
abbrev S4x50x256x256 : Shape := ⟨4, ![4, 50, 256, 256]⟩
abbrev S_ : Shape := ⟨0, ![]⟩

class Facts : Prop where
  bcast_S_S4x100x81 : S_.BroadcastsInDim S4x100x81 (![] : Fin 0 → Fin S4x100x81.rank)
  reducesTo_S4x100x81_S_d0_1_2 : S4x100x81.ReducesTo [0, 1, 2] S_
  h_S_ : 0 < S_.numel
  bcast_S_S4x100x256x256 : S_.BroadcastsInDim S4x100x256x256 (![] : Fin 0 → Fin S4x100x256x256.rank)
  reducesTo_S4x100x256x256_S_d0_1_2_3 : S4x100x256x256.ReducesTo [0, 1, 2, 3] S_
  bcast_S_S4x50x256x256 : S_.BroadcastsInDim S4x50x256x256 (![] : Fin 0 → Fin S4x50x256x256.rank)
  reducesTo_S4x50x256x256_S_d0_1_2_3 : S4x50x256x256.ReducesTo [0, 1, 2, 3] S_

variable [Facts]

def fn {F : FTy → Type} [FloatOps F] (main_arg0 : FVec F S4x100x81 .f32) (main_arg1 : FVec F S4x100x256x256 .f32) (main_arg2 : IVec S4x50 32) (main_arg3 : FVec F S4x50x256x256 .f32) : IVec S_ 1 :=
  let main_v0 : FVec F S4x100x81 .f32 := Host.absf main_arg0
  let main_cst : FVec F S_ .f32 := constant S_ .f32 0x7F800000#32
  let main_v1 : FVec F S4x100x81 .f32 := broadcastInDim S4x100x81 ![] bcast_S_S4x100x81 main_cst
  let main_v2 : IVec S4x100x81 1 := cmpf .olt main_v0 main_v1
  let main_c : IVec S_ 1 := constantI S_ 1 1#1
  let main_v3 : IVec S_ 1 := (fun x v => Host.reduce IntOp.andi x v reducesTo_S4x100x81_S_d0_1_2 h_S_) main_v2 main_c
  let main_v4 : FVec F S4x100x256x256 .f32 := Host.absf main_arg1
  let main_cst_0 : FVec F S_ .f32 := constant S_ .f32 0x7F800000#32
  let main_v5 : FVec F S4x100x256x256 .f32 := broadcastInDim S4x100x256x256 ![] bcast_S_S4x100x256x256 main_cst_0
  let main_v6 : IVec S4x100x256x256 1 := cmpf .olt main_v4 main_v5
  let main_c_1 : IVec S_ 1 := constantI S_ 1 1#1
  let main_v7 : IVec S_ 1 := (fun x v => Host.reduce IntOp.andi x v reducesTo_S4x100x256x256_S_d0_1_2_3 h_S_) main_v6 main_c_1
  let main_v8 : IVec S_ 1 := andi main_v3 main_v7
  let main_v9 : FVec F S4x50x256x256 .f32 := Host.absf main_arg3
  let main_cst_2 : FVec F S_ .f32 := constant S_ .f32 0x7F800000#32
  let main_v10 : FVec F S4x50x256x256 .f32 := broadcastInDim S4x50x256x256 ![] bcast_S_S4x50x256x256 main_cst_2
  let main_v11 : IVec S4x50x256x256 1 := cmpf .olt main_v9 main_v10
  let main_c_3 : IVec S_ 1 := constantI S_ 1 1#1
  let main_v12 : IVec S_ 1 := (fun x v => Host.reduce IntOp.andi x v reducesTo_S4x50x256x256_S_d0_1_2_3 h_S_) main_v11 main_c_3
  let main_v13 : IVec S_ 1 := andi main_v8 main_v12
  main_v13
-- ==== Kernel.lean ====
abbrev S4x100x81 : Shape := ⟨3, ![4, 100, 81]⟩
abbrev S4x100x256x256 : Shape := ⟨4, ![4, 100, 256, 256]⟩
abbrev S4x50 : Shape := ⟨2, ![4, 50]⟩
abbrev S4x50x256x256 : Shape := ⟨4, ![4, 50, 256, 256]⟩
abbrev S_ : Shape := ⟨0, ![]⟩
abbrev S4x100 : Shape := ⟨2, ![4, 100]⟩
abbrev S4x100x1 : Shape := ⟨3, ![4, 100, 1]⟩
abbrev S4x1x50 : Shape := ⟨3, ![4, 1, 50]⟩
abbrev S4x50x1 : Shape := ⟨3, ![4, 50, 1]⟩
abbrev S1 : Shape := ⟨1, ![1]⟩
abbrev S1x1x1 : Shape := ⟨3, ![1, 1, 1]⟩
abbrev S4x100x50 : Shape := ⟨3, ![4, 100, 50]⟩
abbrev S4x100x65536 : Shape := ⟨3, ![4, 100, 65536]⟩
abbrev S4x50x65536 : Shape := ⟨3, ![4, 50, 65536]⟩
abbrev S1x100x8192 : Shape := ⟨3, ![1, 100, 8192]⟩
abbrev S1x50x8192 : Shape := ⟨3, ![1, 50, 8192]⟩
abbrev S1x100x50 : Shape := ⟨3, ![1, 100, 50]⟩
abbrev S100x1 : Shape := ⟨2, ![100, 1]⟩
abbrev S50x1 : Shape := ⟨2, ![50, 1]⟩
abbrev S100x50 : Shape := ⟨2, ![100, 50]⟩
abbrev S100x8192 : Shape := ⟨2, ![100, 8192]⟩
abbrev S50x8192 : Shape := ⟨2, ![50, 8192]⟩
abbrev S100 : Shape := ⟨1, ![100]⟩
abbrev S50 : Shape := ⟨1, ![50]⟩
abbrev S1x50 : Shape := ⟨2, ![1, 50]⟩

abbrev nBuf : Space → Nat
  | .hbm => 50
  | .vmem => 11
  | .smem => 0
  | _ => 0

abbrev bufTy : (tb : Table) → Fin (tcTables nBuf tb) → BufTy
  | .hbm, ⟨0, _⟩ => ⟨S4x100x81, .f32⟩
  | .hbm, ⟨1, _⟩ => ⟨S4x100x256x256, .f32⟩
  | .hbm, ⟨2, _⟩ => ⟨S4x50, .i32⟩
  | .hbm, ⟨3, _⟩ => ⟨S4x50x256x256, .f32⟩
  | .hbm, ⟨4, _⟩ => ⟨S_, .f32⟩
  | .hbm, ⟨5, _⟩ => ⟨S4x100, .f32⟩
  | .hbm, ⟨6, _⟩ => ⟨S_, .f32⟩
  | .hbm, ⟨7, _⟩ => ⟨S4x100, .f32⟩
  | .hbm, ⟨8, _⟩ => ⟨S4x100, .f32⟩
  | .hbm, ⟨9, _⟩ => ⟨S4x100x1, .f32⟩
  | .hbm, ⟨10, _⟩ => ⟨S4x100x81, .f32⟩
  | .hbm, ⟨11, _⟩ => ⟨S4x100x81, .f32⟩
  | .hbm, ⟨12, _⟩ => ⟨S4x100x81, .f32⟩
  | .hbm, ⟨13, _⟩ => ⟨S_, .f32⟩
  | .hbm, ⟨14, _⟩ => ⟨S4x100, .f32⟩
  | .hbm, ⟨15, _⟩ => ⟨S4x100x1, .f32⟩
  | .hbm, ⟨16, _⟩ => ⟨S4x100x81, .f32⟩
  | .hbm, ⟨17, _⟩ => ⟨S4x100x81, .f32⟩
  | .hbm, ⟨18, _⟩ => ⟨S4x1x50, .i32⟩
  | .hbm, ⟨19, _⟩ => ⟨S_, .i32⟩
  | .hbm, ⟨20, _⟩ => ⟨S4x1x50, .i32⟩
  | .hbm, ⟨21, _⟩ => ⟨S4x1x50, .i1⟩
  | .hbm, ⟨22, _⟩ => ⟨S_, .i32⟩
  | .hbm, ⟨23, _⟩ => ⟨S4x1x50, .i32⟩
  | .hbm, ⟨24, _⟩ => ⟨S4x1x50, .i32⟩
  | .hbm, ⟨25, _⟩ => ⟨S4x1x50, .i32⟩
  | .hbm, ⟨26, _⟩ => ⟨S4x50x1, .i32⟩
  | .hbm, ⟨27, _⟩ => ⟨S1, .i32⟩
  | .hbm, ⟨28, _⟩ => ⟨S_, .i32⟩
  | .hbm, ⟨29, _⟩ => ⟨S4x50x1, .i32⟩
  | .hbm, ⟨30, _⟩ => ⟨S4x50x1, .i1⟩
  | .hbm, ⟨31, _⟩ => ⟨S1x1x1, .i32⟩
  | .hbm, ⟨32, _⟩ => ⟨S4x50x1, .i32⟩
  | .hbm, ⟨33, _⟩ => ⟨S4x50x1, .i1⟩
  | .hbm, ⟨34, _⟩ => ⟨S4x50x1, .i1⟩
  | .hbm, ⟨35, _⟩ => ⟨S_, .i1⟩
  | .hbm, ⟨36, _⟩ => ⟨S4x50, .i1⟩
  | .hbm, ⟨37, _⟩ => ⟨S4x100x50, .f32⟩
  | .hbm, ⟨38, _⟩ => ⟨S4x100x50, .i1⟩
  | .hbm, ⟨39, _⟩ => ⟨S_, .f32⟩
  | .hbm, ⟨40, _⟩ => ⟨S4x100x50, .f32⟩
  | .hbm, ⟨41, _⟩ => ⟨S4x100x50, .f32⟩
  | .hbm, ⟨42, _⟩ => ⟨S4x100x50, .f32⟩
  | .hbm, ⟨43, _⟩ => ⟨S4x100x65536, .f32⟩
  | .hbm, ⟨44, _⟩ => ⟨S4x50x65536, .f32⟩
  | .hbm, ⟨45, _⟩ => ⟨S4x100x50, .f32⟩
  | .hbm, ⟨46, _⟩ => ⟨S_, .f32⟩
  | .hbm, ⟨47, _⟩ => ⟨S4x100x50, .f32⟩
  | .hbm, ⟨48, _⟩ => ⟨S4x100x50, .f32⟩
  | .hbm, ⟨49, _⟩ => ⟨S4x100x50, .f32⟩
  | .local _ .vmem, ⟨0, _⟩ => ⟨S1x100x8192, .f32⟩
  | .local _ .vmem, ⟨1, _⟩ => ⟨S1x100x8192, .f32⟩
  | .local _ .vmem, ⟨2, _⟩ => ⟨S1x50x8192, .f32⟩
  | .local _ .vmem, ⟨3, _⟩ => ⟨S1x50x8192, .f32⟩
  | .local _ .vmem, ⟨4, _⟩ => ⟨S1x100x50, .f32⟩
  | .local _ .vmem, ⟨5, _⟩ => ⟨S1x100x50, .f32⟩
  | .local _ .vmem, ⟨6, _⟩ => ⟨S100x1, .f32⟩
  | .local _ .vmem, ⟨7, _⟩ => ⟨S100x1, .f32⟩
  | .local _ .vmem, ⟨8, _⟩ => ⟨S50x1, .f32⟩
  | .local _ .vmem, ⟨9, _⟩ => ⟨S100x50, .f32⟩
  | .local _ .vmem, ⟨10, _⟩ => ⟨S100x50, .f32⟩
  | _, _ => ⟨S4x100x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v58 : BitVec 1 := Scalar.cmpi .eq arg1 c7_i32
  let v59 : BitVec 32 := Scalar.extui v58
  let c0_i32_32 : BitVec 32 := 0#32
  let v60 : BitVec 1 := Scalar.cmpi .ne v59 c0_i32_32
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x50x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x100x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4x100x81_S4x100_d2 : S4x100x81.ReducesTo [2] S4x100
  h_S_ : 0 < S_.numel
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S4x100x1_S4x100x81_0_1_2 : S4x100x1.BroadcastsInDim S4x100x81 (![0, 1, 2] : Fin 3 → Fin S4x100x81.rank)
  bcast_S4x50_S4x1x50_0_2 : S4x50.BroadcastsInDim S4x1x50 (![0, 2] : Fin 2 → Fin S4x1x50.rank)
  bcast_S_S4x1x50 : S_.BroadcastsInDim S4x1x50 (![] : Fin 0 → Fin S4x1x50.rank)
  shapeCasts_S4x1x50_S4x50x1 : S4x1x50.ShapeCasts S4x50x1
  bcast_S_S4x50x1 : S_.BroadcastsInDim S4x50x1 (![] : Fin 0 → Fin S4x50x1.rank)
  bcast_S1_S1x1x1_2 : S1.BroadcastsInDim S1x1x1 (![2] : Fin 1 → Fin S1x1x1.rank)
  bcast_S1x1x1_S4x50x1_0_1_2 : S1x1x1.BroadcastsInDim S4x50x1 (![0, 1, 2] : Fin 3 → Fin S4x50x1.rank)
  reducesTo_S4x50x1_S4x50_d2 : S4x50x1.ReducesTo [2] S4x50
  bcast_S4x50_S4x100x50_0_2 : S4x50.BroadcastsInDim S4x100x50 (![0, 2] : Fin 2 → Fin S4x100x50.rank)
  bcast_S_S4x100x50 : S_.BroadcastsInDim S4x100x50 (![] : Fin 0 → Fin S4x100x50.rank)
  shapeCasts_S4x100x256x256_S4x100x65536 : S4x100x256x256.ShapeCasts S4x100x65536
  shapeCasts_S4x50x256x256_S4x50x65536 : S4x50x256x256.ShapeCasts S4x50x65536
  inb_S100x1_S100x1_0_0 : ∀ a, (![0, 0] : Fin 2 → Nat) a + S100x1.size a ≤ S100x1.size a
  h_S100x1 : 0 < S100x1.numel
  shapeCasts_S100x1_S100x1 : S100x1.ShapeCasts S100x1
  inb_S50x1_S50x1_0_0 : ∀ a, (![0, 0] : Fin 2 → Nat) a + S50x1.size a ≤ S50x1.size a
  h_S50x1 : 0 < S50x1.numel
  shapeCasts_S50x1_S50x1 : S50x1.ShapeCasts S50x1
  inb_S100x50_S100x50_0_0 : ∀ a, (![0, 0] : Fin 2 → Nat) a + S100x50.size a ≤ S100x50.size a
  h_S100x50 : 0 < S100x50.numel
  shapeCasts_S100x50_S100x50 : S100x50.ShapeCasts S100x50
  inb_S1x100x8192_S1x100x8192_0_0_0 : ∀ a, (![0, 0, 0] : Fin 3 → Nat) a + S1x100x8192.size a ≤ S1x100x8192.size a
  h_S1x100x8192 : 0 < S1x100x8192.numel
  shapeCasts_S1x100x8192_S100x8192 : S1x100x8192.ShapeCasts S100x8192
  inb_S1x50x8192_S1x50x8192_0_0_0 : ∀ a, (![0, 0, 0] : Fin 3 → Nat) a + S1x50x8192.size a ≤ S1x50x8192.size a
  h_S1x50x8192 : 0 < S1x50x8192.numel
  shapeCasts_S1x50x8192_S50x8192 : S1x50x8192.ShapeCasts S50x8192
  reduces_S100x8192_S100 : S100x8192.Reduces [1] S100
  shapeCasts_S100_S100x1 : S100.ShapeCasts S100x1
  reduces_S50x8192_S50 : S50x8192.Reduces [1] S50
  shapeCasts_S50_S50x1 : S50.ShapeCasts S50x1
  bitsLt_bf16_f32 : FTy.bits .bf16 < FTy.bits .f32
  broadcasts_S100x1_S100x50 : S100x1.Broadcasts S100x50
  transposes_S50x1_p1_0_S1x50 : S50x1.Transposes [1, 0] S1x50
  broadcasts_S1x50_S100x50 : S1x50.Broadcasts S100x50
  inb_S1x100x50_S1x100x50_0_0_0 : ∀ a, (![0, 0, 0] : Fin 3 → Nat) a + S1x100x50.size a ≤ S1x100x50.size a
  h_S1x100x50 : 0 < S1x100x50.numel
  shapeCasts_S1x100x50_S100x50 : S1x100x50.ShapeCasts S100x50
  shapeCasts_S100x50_S1x100x50 : S100x50.ShapeCasts S1x100x50
  gather_S4x100x81_S4x50x1_S4x100x50_1_2_0_0_2_2_11001_wf : GatherDims.WF S4x100x81 S4x50x1 S4x100x50 [1] [2] [0] [2] [0] 2 ![1, 100, 1]
  dot_S100x8192_S50x8192_S100x50_1_1_0_0_n_n_wf : DotDims.WF S100x8192 S50x8192 S100x50 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x8192.size a ≤ S4x100x65536.size a
  hwx0_0 : ∀ i : grid0.Coords, EltTy.bits .f32 = 32 ∨ (Rect.block (s := S4x100x65536) S1x100x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x50x8192.size a ≤ S4x50x65536.size a
  hwx0_1 : ∀ i : grid0.Coords, EltTy.bits .f32 = 32 ∨ (Rect.block (s := S4x50x65536) S1x50x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x50.size a ≤ S4x100x50.size a
  hwx0_2 : ∀ i : grid0.Coords, EltTy.bits .f32 = 32 ∨ (Rect.block (s := S4x100x50) S1x100x50.size (cc0_transform_2 i) (hinb0_2 i)).WholeWords (EltTy.packing .f32)

variable [Facts₀]

def gather_S4x100x81_S4x50x1_S4x100x50_1_2_0_0_2_2_11001 : GatherDims S4x100x81 S4x50x1 S4x100x50 where
  offsetDims := [1]
  collapsedSliceDims := [2]
  operandBatchingDims := [0]
  startIndicesBatchingDims := [0]
  startIndexMap := [2]
  indexVectorDim := 2
  sliceSizes := ![1, 100, 1]
  wf := gather_S4x100x81_S4x50x1_S4x100x50_1_2_0_0_2_2_11001_wf
def dot_S100x8192_S50x8192_S100x50_1_1_0_0_n_n : DotDims S100x8192 S50x8192 S100x50 where
  lhsContracting := [1]
  rhsContracting := [1]
  lhsNonContracting := [0]
  rhsNonContracting := [0]
  lhsBatch := []
  rhsBatch := []
  wf := dot_S100x8192_S50x8192_S100x50_1_1_0_0_n_n_wf

abbrev win0_0 : Pipeline.Window sig grid0 :=
  Pipeline.Window.ofSpec (Memref.whole main_v14) S1x100x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x50x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x100x50.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x100x81 : Shape := ⟨3, ![4, 100, 81]⟩
abbrev S4x100x256x256 : Shape := ⟨4, ![4, 100, 256, 256]⟩
abbrev S4x50 : Shape := ⟨2, ![4, 50]⟩
abbrev S4x50x256x256 : Shape := ⟨4, ![4, 50, 256, 256]⟩
abbrev S_ : Shape := ⟨0, ![]⟩
abbrev S4x100 : Shape := ⟨2, ![4, 100]⟩
abbrev S4x100x1 : Shape := ⟨3, ![4, 100, 1]⟩
abbrev S4x1x50 : Shape := ⟨3, ![4, 1, 50]⟩
abbrev S4x50x1 : Shape := ⟨3, ![4, 50, 1]⟩
abbrev S1 : Shape := ⟨1, ![1]⟩
abbrev S1x1x1 : Shape := ⟨3, ![1, 1, 1]⟩
abbrev S4x100x50 : Shape := ⟨3, ![4, 100, 50]⟩
abbrev S4x100x65536 : Shape := ⟨3, ![4, 100, 65536]⟩
abbrev S4x50x65536 : Shape := ⟨3, ![4, 50, 65536]⟩

abbrev nBuf : Space → Nat
  | .hbm => 110
  | .vmem => 0
  | .smem => 0
  | _ => 0

abbrev bufTy : (tb : Table) → Fin (tcTables nBuf tb) → BufTy
  | .hbm, ⟨0, _⟩ => ⟨S4x100x81, .f32⟩
  | .hbm, ⟨1, _⟩ => ⟨S4x100x256x256, .f32⟩
  | .hbm, ⟨2, _⟩ => ⟨S4x50, .i32⟩
  | .hbm, ⟨3, _⟩ => ⟨S4x50x256x256, .f32⟩
  | .hbm, ⟨4, _⟩ => ⟨S_, .f32⟩
  | .hbm, ⟨5, _⟩ => ⟨S4x100, .f32⟩
  | .hbm, ⟨6, _⟩ => ⟨S_, .f32⟩
  | .hbm, ⟨7, _⟩ => ⟨S4x100, .f32⟩
  | .hbm, ⟨8, _⟩ => ⟨S4x100, .f32⟩
  | .hbm, ⟨9, _⟩ => ⟨S4x100x1, .f32⟩
  | .hbm, ⟨10, _⟩ => ⟨S4x100x81, .f32⟩
  | .hbm, ⟨11, _⟩ => ⟨S4x100x81, .f32⟩
  | .hbm, ⟨12, _⟩ => ⟨S4x100x81, .f32⟩
  | .hbm, ⟨13, _⟩ => ⟨S_, .f32⟩
  | .hbm, ⟨14, _⟩ => ⟨S4x100, .f32⟩
  | .hbm, ⟨15, _⟩ => ⟨S4x100x1, .f32⟩
  | .hbm, ⟨16, _⟩ => ⟨S4x100x81, .f32⟩
  | .hbm, ⟨17, _⟩ => ⟨S4x100x81, .f32⟩
  | .hbm, ⟨18, _⟩ => ⟨S4x1x50, .i32⟩
  | .hbm, ⟨19, _⟩ => ⟨S_, .i32⟩
  | .hbm, ⟨20, _⟩ => ⟨S4x1x50, .i32⟩
  | .hbm, ⟨21, _⟩ => ⟨S4x1x50, .i1⟩
  | .hbm, ⟨22, _⟩ => ⟨S_, .i32⟩
  | .hbm, ⟨23, _⟩ => ⟨S4x1x50, .i32⟩
  | .hbm, ⟨24, _⟩ => ⟨S4x1x50, .i32⟩
  | .hbm, ⟨25, _⟩ => ⟨S4x1x50, .i32⟩
  | .hbm, ⟨26, _⟩ => ⟨S4x50x1, .i32⟩
  | .hbm, ⟨27, _⟩ => ⟨S1, .i32⟩
  | .hbm, ⟨28, _⟩ => ⟨S_, .i32⟩
  | .hbm, ⟨29, _⟩ => ⟨S4x50x1, .i32⟩
  | .hbm, ⟨30, _⟩ => ⟨S4x50x1, .i1⟩
  | .hbm, ⟨31, _⟩ => ⟨S1x1x1, .i32⟩
  | .hbm, ⟨32, _⟩ => ⟨S4x50x1, .i32⟩
  | .hbm, ⟨33, _⟩ => ⟨S4x50x1, .i1⟩
  | .hbm, ⟨34, _⟩ => ⟨S4x50x1, .i1⟩
  | .hbm, ⟨35, _⟩ => ⟨S_, .i1⟩
  | .hbm, ⟨36, _⟩ => ⟨S4x50, .i1⟩
  | .hbm, ⟨37, _⟩ => ⟨S4x100x50, .f32⟩
  | .hbm, ⟨38, _⟩ => ⟨S4x100x50, .i1⟩
  | .hbm, ⟨39, _⟩ => ⟨S_, .f32⟩
  | .hbm, ⟨40, _⟩ => ⟨S4x100x50, .f32⟩
  | .hbm, ⟨41, _⟩ => ⟨S4x100x50, .f32⟩
  | .hbm, ⟨42, _⟩ => ⟨S4x100x50, .f32⟩
  | .hbm, ⟨43, _⟩ => ⟨S4x100x65536, .f32⟩
  | .hbm, ⟨44, _⟩ => ⟨S4x50x65536, .f32⟩
  | .hbm, ⟨45, _⟩ => ⟨S_, .f32⟩
  | .hbm, ⟨46, _⟩ => ⟨S4x100x65536, .f32⟩
  | .hbm, ⟨47, _⟩ => ⟨S4x100x65536, .f32⟩
  | .hbm, ⟨48, _⟩ => ⟨S4x100x65536, .f32⟩
  | .hbm, ⟨49, _⟩ => ⟨S4x100x65536, .f32⟩
  | .hbm, ⟨50, _⟩ => ⟨S4x100x65536, .i1⟩
  | .hbm, ⟨51, _⟩ => ⟨S4x100x65536, .f32⟩
  | .hbm, ⟨52, _⟩ => ⟨S4x100x65536, .f32⟩
  | .hbm, ⟨53, _⟩ => ⟨S4x100x65536, .f32⟩
  | .hbm, ⟨54, _⟩ => ⟨S4x100x65536, .f32⟩
  | .hbm, ⟨55, _⟩ => ⟨S4x100x65536, .f32⟩
  | .hbm, ⟨56, _⟩ => ⟨S4x100x65536, .f32⟩
  | .hbm, ⟨57, _⟩ => ⟨S4x100x65536, .f32⟩
  | .hbm, ⟨58, _⟩ => ⟨S4x100x65536, .f32⟩
  | .hbm, ⟨59, _⟩ => ⟨S_, .f32⟩
  | .hbm, ⟨60, _⟩ => ⟨S4x100, .f32⟩
  | .hbm, ⟨61, _⟩ => ⟨S_, .f32⟩
  | .hbm, ⟨62, _⟩ => ⟨S4x100, .f32⟩
  | .hbm, ⟨63, _⟩ => ⟨S4x100, .f32⟩
  | .hbm, ⟨64, _⟩ => ⟨S4x100x50, .f32⟩
  | .hbm, ⟨65, _⟩ => ⟨S4x100x1, .f32⟩
  | .hbm, ⟨66, _⟩ => ⟨S_, .f32⟩
  | .hbm, ⟨67, _⟩ => ⟨S4x100x50, .f32⟩
  | .hbm, ⟨68, _⟩ => ⟨S4x100x50, .f32⟩
  | .hbm, ⟨69, _⟩ => ⟨S4x100x50, .f32⟩
  | .hbm, ⟨70, _⟩ => ⟨S4x100x50, .f32⟩
  | .hbm, ⟨71, _⟩ => ⟨S4x100x65536, .f32⟩
  | .hbm, ⟨72, _⟩ => ⟨S4x100x65536, .f32⟩
  | .hbm, ⟨73, _⟩ => ⟨S_, .f32⟩
  | .hbm, ⟨74, _⟩ => ⟨S4x100x65536, .f32⟩
  | .hbm, ⟨75, _⟩ => ⟨S4x100x65536, .f32⟩
  | .hbm, ⟨76, _⟩ => ⟨S_, .f32⟩
  | .hbm, ⟨77, _⟩ => ⟨S4x100x65536, .f32⟩
  | .hbm, ⟨78, _⟩ => ⟨S4x100x65536, .f32⟩
  | .hbm, ⟨79, _⟩ => ⟨S4x100x50, .f32⟩
  | .hbm, ⟨80, _⟩ => ⟨S_, .f32⟩
  | .hbm, ⟨81, _⟩ => ⟨S4x100x50, .f32⟩
  | .hbm, ⟨82, _⟩ => ⟨S4x100x50, .f32⟩
  | .hbm, ⟨83, _⟩ => ⟨S_, .f32⟩
  | .hbm, ⟨84, _⟩ => ⟨S4x100, .f32⟩
  | .hbm, ⟨85, _⟩ => ⟨S4x100x1, .f32⟩
  | .hbm, ⟨86, _⟩ => ⟨S_, .f32⟩
  | .hbm, ⟨87, _⟩ => ⟨S4x50, .f32⟩
  | .hbm, ⟨88, _⟩ => ⟨S4x1x50, .f32⟩
  | .hbm, ⟨89, _⟩ => ⟨S4x100x50, .f32⟩
  | .hbm, ⟨90, _⟩ => ⟨S4x100x50, .f32⟩
  | .hbm, ⟨91, _⟩ => ⟨S4x100x50, .f32⟩
  | .hbm, ⟨92, _⟩ => ⟨S_, .f32⟩
  | .hbm, ⟨93, _⟩ => ⟨S4x100x50, .f32⟩
  | .hbm, ⟨94, _⟩ => ⟨S4x100x50, .f32⟩
  | .hbm, ⟨95, _⟩ => ⟨S4x100x50, .f32⟩
  | .hbm, ⟨96, _⟩ => ⟨S_, .f32⟩
  | .hbm, ⟨97, _⟩ => ⟨S4x100x50, .f32⟩
  | .hbm, ⟨98, _⟩ => ⟨S4x100x50, .f32⟩
  | .hbm, ⟨99, _⟩ => ⟨S_, .f32⟩
  | .hbm, ⟨100, _⟩ => ⟨S4x100x50, .f32⟩
  | .hbm, ⟨101, _⟩ => ⟨S4x100x50, .f32⟩
  | .hbm, ⟨102, _⟩ => ⟨S_, .f32⟩
  | .hbm, ⟨103, _⟩ => ⟨S4x100x50, .f32⟩
  | .hbm, ⟨104, _⟩ => ⟨S4x100x50, .f32⟩
  | .hbm, ⟨105, _⟩ => ⟨S4x100x50, .f32⟩
  | .hbm, ⟨106, _⟩ => ⟨S_, .f32⟩
  | .hbm, ⟨107, _⟩ => ⟨S4x100x50, .f32⟩
  | .hbm, ⟨108, _⟩ => ⟨S4x100x50, .f32⟩
  | .hbm, ⟨109, _⟩ => ⟨S4x100x50, .f32⟩
  | _, _ => ⟨S4x100x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_v16 : Ref sig .tc := ⟨.hbm, 58, rfl⟩
abbrev main_cst_2 : Ref sig .tc := ⟨.hbm, 59, rfl⟩
abbrev main_v17 : Ref sig .tc := ⟨.hbm, 60, rfl⟩
abbrev main_cst_3 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_4 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_5 : Ref sig .tc := ⟨.hbm, 73, rfl⟩
abbrev main_v28 : Ref sig .tc := ⟨.hbm, 74, rfl⟩
abbrev main_v29 : Ref sig .tc := ⟨.hbm, 75, rfl⟩
abbrev main_cst_6 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_7 : Ref sig .tc := ⟨.hbm, 80, rfl⟩
abbrev main_v33 : Ref sig .tc := ⟨.hbm, 81, rfl⟩
abbrev main_v34 : Ref sig .tc := ⟨.hbm, 82, rfl⟩
abbrev main_cst_8 : Ref sig .tc := ⟨.hbm, 83, rfl⟩
abbrev main_v35 : Ref sig .tc := ⟨.hbm, 84, rfl⟩
abbrev main_v36 : Ref sig .tc := ⟨.hbm, 85, rfl⟩
abbrev main_cst_9 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_10 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_cst_11 : Ref sig .tc := ⟨.hbm, 96, rfl⟩
abbrev main_v45 : Ref sig .tc := ⟨.hbm, 97, rfl⟩
abbrev main_v46 : Ref sig .tc := ⟨.hbm, 98, rfl⟩
abbrev main_cst_12 : Ref sig .tc := ⟨.hbm, 99, rfl⟩
abbrev main_v47 : Ref sig .tc := ⟨.hbm, 100, rfl⟩
abbrev main_v48 : Ref sig .tc := ⟨.hbm, 101, rfl⟩
abbrev main_cst_13 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_14 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩

abbrev nD : Nat := 1
abbrev τ : Topo := Topo.v7x

variable {F : FTy → Type} [FloatOps F]

class Facts₀ : Prop where
  reducesTo_S4x100x81_S4x100_d2 : S4x100x81.ReducesTo [2] S4x100
  h_S_ : 0 < S_.numel
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S4x100x1_S4x100x81_0_1_2 : S4x100x1.BroadcastsInDim S4x100x81 (![0, 1, 2] : Fin 3 → Fin S4x100x81.rank)
  bcast_S4x50_S4x1x50_0_2 : S4x50.BroadcastsInDim S4x1x50 (![0, 2] : Fin 2 → Fin S4x1x50.rank)
  bcast_S_S4x1x50 : S_.BroadcastsInDim S4x1x50 (![] : Fin 0 → Fin S4x1x50.rank)
  shapeCasts_S4x1x50_S4x50x1 : S4x1x50.ShapeCasts S4x50x1
  bcast_S_S4x50x1 : S_.BroadcastsInDim S4x50x1 (![] : Fin 0 → Fin S4x50x1.rank)
  bcast_S1_S1x1x1_2 : S1.BroadcastsInDim S1x1x1 (![2] : Fin 1 → Fin S1x1x1.rank)
  bcast_S1x1x1_S4x50x1_0_1_2 : S1x1x1.BroadcastsInDim S4x50x1 (![0, 1, 2] : Fin 3 → Fin S4x50x1.rank)
  reducesTo_S4x50x1_S4x50_d2 : S4x50x1.ReducesTo [2] S4x50
  bcast_S4x50_S4x100x50_0_2 : S4x50.BroadcastsInDim S4x100x50 (![0, 2] : Fin 2 → Fin S4x100x50.rank)
  bcast_S_S4x100x50 : S_.BroadcastsInDim S4x100x50 (![] : Fin 0 → Fin S4x100x50.rank)
  shapeCasts_S4x100x256x256_S4x100x65536 : S4x100x256x256.ShapeCasts S4x100x65536
  shapeCasts_S4x50x256x256_S4x50x65536 : S4x50x256x256.ShapeCasts S4x50x65536
  bcast_S_S4x100x65536 : S_.BroadcastsInDim S4x100x65536 (![] : Fin 0 → Fin S4x100x65536.rank)
  reducesTo_S4x100x65536_S4x100_d2 : S4x100x65536.ReducesTo [2] S4x100
  bcast_S4x100x1_S4x100x50_0_1_2 : S4x100x1.BroadcastsInDim S4x100x50 (![0, 1, 2] : Fin 3 → Fin S4x100x50.rank)
  reducesTo_S4x50x65536_S4x50_d2 : S4x50x65536.ReducesTo [2] S4x50
  bcast_S4x1x50_S4x100x50_0_1_2 : S4x1x50.BroadcastsInDim S4x100x50 (![0, 1, 2] : Fin 3 → Fin S4x100x50.rank)
  gather_S4x100x81_S4x50x1_S4x100x50_1_2_0_0_2_2_11001_wf : GatherDims.WF S4x100x81 S4x50x1 S4x100x50 [1] [2] [0] [2] [0] 2 ![1, 100, 1]
  dot_S4x100x65536_S4x50x65536_S4x100x50_2_2_1_1_0_0_wf : DotDims.WF S4x100x65536 S4x50x65536 S4x100x50 [2] [2] [1] [1] [0] [0]

variable [Facts₀]

def gather_S4x100x81_S4x50x1_S4x100x50_1_2_0_0_2_2_11001 : GatherDims S4x100x81 S4x50x1 S4x100x50 where
  offsetDims := [1]
  collapsedSliceDims := [2]
  operandBatchingDims := [0]
  startIndicesBatchingDims := [0]
  startIndexMap := [2]
  indexVectorDim := 2
  sliceSizes := ![1, 100, 1]
  wf := gather_S4x100x81_S4x50x1_S4x100x50_1_2_0_0_2_2_11001_wf
def dot_S4x100x65536_S4x50x65536_S4x100x50_2_2_1_1_0_0 : DotDims S4x100x65536 S4x50x65536 S4x100x50 where
  lhsContracting := [2]
  rhsContracting := [2]
  lhsNonContracting := [1]
  rhsNonContracting := [1]
  lhsBatch := [0]
  rhsBatch := [0]
  wf := dot_S4x100x65536_S4x50x65536_S4x100x50_2_2_1_1_0_0_wf

class Facts : Prop extends Facts₀ where

variable [Facts]
-- ==== Proof.PiecesA.lean ====
/-
  What the first point of a batch (the accumulators are zeroed, then grown by this tile) leaves in each accumulator: the value its one covering store wrote,
  as a function of the two tiles.  Every load and store of the body goes through the whole buffer,
  so a load reads the buffer's contents and the last store leaves its value.
-/
import proofs.«154864_j29695403884993_1_alg».proof.Proof.Gen.KernelIdeal.Frame
import Idealize.ShloMosaic.Lib.Pipeline.Value
import Idealize.ShloMosaic.Lib.Tactic

set_option maxRecDepth 16384

noncomputable section

namespace Cert.KernelIdeal.PiecesA

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S1x100x8192 .f32) (harg2 : arg2.IsWhole) (arg3 : Memref sig .tc .vmem S1x50x8192 .f32) (harg3 : arg3.IsWhole) (arg4 : Memref sig .tc .vmem S1x100x50 .f32) (harg4 : arg4.IsWhole) (arg5 : Memref sig .tc .vmem S100x1 .f32) (harg5 : arg5.IsWhole) (arg6 : Memref sig .tc .vmem S100x1 .f32) (harg6 : arg6.IsWhole) (arg7 : Memref sig .tc .vmem S50x1 .f32) (harg7 : arg7.IsWhole) (arg8 : Memref sig .tc .vmem S100x50 .f32) (harg8 : arg8.IsWhole) (arg9 : Memref sig .tc .vmem S100x50 .f32) (harg9 : arg9.IsWhole)
  (x0 : Vec F S1x100x8192 .f32) (x1 : Vec F S1x50x8192 .f32) (xs0 : Vec F S100x1 .f32) (xs1 : Vec F S100x1 .f32) (xs2 : Vec F S50x1 .f32) (xs3 : Vec F S100x50 .f32) (xs4 : Vec F S100x50 .f32)

/-- Accumulator 0 after the first point of a batch. -/
theorem sout_0 (hc0 : cond0_0 i) (hc1 : ¬cond0_1 i) :
    sout0_A_0 c i arg2 harg2 arg3 harg3 arg4 harg4 arg5 harg5 arg6 harg6 arg7 harg7 arg8 harg8 arg9 harg9 hc0 hc1 x0 x1 = k0_pay14 x0 k0_pay6 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S100x1) hz2, View.readCov_unit_zero (S := S100x1) _ hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

/-- Accumulator 1 after the first point of a batch. -/
theorem sout_1 (hc0 : cond0_0 i) (hc1 : ¬cond0_1 i) :
    sout0_A_1 c i arg2 harg2 arg3 harg3 arg4 harg4 arg5 harg5 arg6 harg6 arg7 harg7 arg8 harg8 arg9 harg9 hc0 hc1 x0 x1 = k0_pay15 x0 k0_pay7 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S100x1) hz2, View.readCov_unit_zero (S := S100x1) _ hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

/-- Accumulator 2 after the first point of a batch. -/
theorem sout_2 (hc0 : cond0_0 i) (hc1 : ¬cond0_1 i) :
    sout0_A_2 c i arg2 harg2 arg3 harg3 arg4 harg4 arg5 harg5 arg6 harg6 arg7 harg7 arg8 harg8 arg9 harg9 hc0 hc1 x0 x1 = k0_pay1 (k0_pay12 x1) k0_pay8 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S50x1) hz2, View.readCov_unit_zero (S := S50x1) _ hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

/-- Accumulator 3 after the first point of a batch. -/
theorem sout_3 (hc0 : cond0_0 i) (hc1 : ¬cond0_1 i) :
    sout0_A_3 c i arg2 harg2 arg3 harg3 arg4 harg4 arg5 harg5 arg6 harg6 arg7 harg7 arg8 harg8 arg9 harg9 hc0 hc1 x0 x1 = k0_pay3 (k0_pay11 x0) (k0_pay12 x1) k0_pay9 := by
  unfold sout0_A_3
  rw [View.read_writes_eq_canon _ _ _ (scover0_A_3 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S100x50) hz2, View.readCov_unit_zero (S := S100x50) _ hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

/-- Accumulator 4 after the first point of a batch. -/
theorem sout_4 (hc0 : cond0_0 i) (hc1 : ¬cond0_1 i) :
    sout0_A_4 c i arg2 harg2 arg3 harg3 arg4 harg4 arg5 harg5 arg6 harg6 arg7 harg7 arg8 harg8 arg9 harg9 hc0 hc1 x0 x1 = k0_pay4 (k0_pay12 x1) (k0_pay13 x0) k0_pay10 := by
  unfold sout0_A_4
  rw [View.read_writes_eq_canon _ _ _ (scover0_A_4 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S100x50) hz2, View.readCov_unit_zero (S := S100x50) _ hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

end Cert.KernelIdeal.PiecesA

end
-- ==== Proof.PiecesB.lean ====
/-
  What a middle point of a batch (the accumulators the point before left, grown by this tile) leaves in each accumulator: the value its one covering store wrote,
  as a function of the two tiles and of what the accumulators held before.  Every load and store of the body goes through the whole buffer,
  so a load reads the buffer's contents and the last store leaves its value.
-/
import proofs.«154864_j29695403884993_1_alg».proof.Proof.Gen.KernelIdeal.Frame
import Idealize.ShloMosaic.Lib.Pipeline.Value
import Idealize.ShloMosaic.Lib.Tactic

set_option maxRecDepth 16384

noncomputable section

namespace Cert.KernelIdeal.PiecesB

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S1x100x8192 .f32) (harg2 : arg2.IsWhole) (arg3 : Memref sig .tc .vmem S1x50x8192 .f32) (harg3 : arg3.IsWhole) (arg4 : Memref sig .tc .vmem S1x100x50 .f32) (harg4 : arg4.IsWhole) (arg5 : Memref sig .tc .vmem S100x1 .f32) (harg5 : arg5.IsWhole) (arg6 : Memref sig .tc .vmem S100x1 .f32) (harg6 : arg6.IsWhole) (arg7 : Memref sig .tc .vmem S50x1 .f32) (harg7 : arg7.IsWhole) (arg8 : Memref sig .tc .vmem S100x50 .f32) (harg8 : arg8.IsWhole) (arg9 : Memref sig .tc .vmem S100x50 .f32) (harg9 : arg9.IsWhole)
  (x0 : Vec F S1x100x8192 .f32) (x1 : Vec F S1x50x8192 .f32) (xs0 : Vec F S100x1 .f32) (xs1 : Vec F S100x1 .f32) (xs2 : Vec F S50x1 .f32) (xs3 : Vec F S100x50 .f32) (xs4 : Vec F S100x50 .f32)

/-- Accumulator 0 after a middle point of a batch. -/
theorem sout_0 (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 xs0 xs1 xs2 xs3 xs4 = k0_pay14 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

/-- Accumulator 1 after a middle point of a batch. -/
theorem sout_1 (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 xs0 xs1 xs2 xs3 xs4 = k0_pay15 x0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

/-- Accumulator 2 after a middle point of a batch. -/
theorem sout_2 (hc0 : ¬cond0_0 i) (hc1 : ¬cond0_1 i) :
    sout0_B_2 c i arg2 harg2 arg3 harg3 arg4 harg4 arg5 harg5 arg6 harg6 arg7 harg7 arg8 harg8 arg9 harg9 hc0 hc1 x0 x1 xs0 xs1 xs2 xs3 xs4 = k0_pay1 (k0_pay12 x1) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

/-- Accumulator 3 after a middle point of a batch. -/
theorem sout_3 (hc0 : ¬cond0_0 i) (hc1 : ¬cond0_1 i) :
    sout0_B_3 c i arg2 harg2 arg3 harg3 arg4 harg4 arg5 harg5 arg6 harg6 arg7 harg7 arg8 harg8 arg9 harg9 hc0 hc1 x0 x1 xs0 xs1 xs2 xs3 xs4 = k0_pay3 (k0_pay11 x0) (k0_pay12 x1) xs3 := by
  unfold sout0_B_3
  rw [View.read_writes_eq_canon _ _ _ (scover0_B_3 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

/-- Accumulator 4 after a middle point of a batch. -/
theorem sout_4 (hc0 : ¬cond0_0 i) (hc1 : ¬cond0_1 i) :
    sout0_B_4 c i arg2 harg2 arg3 harg3 arg4 harg4 arg5 harg5 arg6 harg6 arg7 harg7 arg8 harg8 arg9 harg9 hc0 hc1 x0 x1 xs0 xs1 xs2 xs3 xs4 = k0_pay4 (k0_pay12 x1) (k0_pay13 x0) xs4 := by
  unfold sout0_B_4
  rw [View.read_writes_eq_canon _ _ _ (scover0_B_4 c i arg2 harg2 arg3 harg3 arg4 harg4 arg5 harg5 arg6 harg6 arg7 harg7 arg8 harg8 arg9 harg9 hc0 hc1 x0 x1 xs0 xs1 xs2 xs3 xs4)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

end Cert.KernelIdeal.PiecesB

end
-- ==== Proof.PiecesC.lean ====
/-
  What the last point of a batch (the accumulators grown by this tile, then combined into the output block) leaves in each accumulator and in the output's block: the value its one covering store wrote,
  as a function of the two tiles and of what the accumulators held before.  Every load and store of the body goes through the whole buffer,
  so a load reads the buffer's contents and the last store leaves its value.
-/
import proofs.«154864_j29695403884993_1_alg».proof.Proof.Gen.KernelIdeal.Frame
import Idealize.ShloMosaic.Lib.Pipeline.Value
import Idealize.ShloMosaic.Lib.Tactic

set_option maxRecDepth 16384

noncomputable section

namespace Cert.KernelIdeal.PiecesC

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S1x100x8192 .f32) (harg2 : arg2.IsWhole) (arg3 : Memref sig .tc .vmem S1x50x8192 .f32) (harg3 : arg3.IsWhole) (arg4 : Memref sig .tc .vmem S1x100x50 .f32) (harg4 : arg4.IsWhole) (arg5 : Memref sig .tc .vmem S100x1 .f32) (harg5 : arg5.IsWhole) (arg6 : Memref sig .tc .vmem S100x1 .f32) (harg6 : arg6.IsWhole) (arg7 : Memref sig .tc .vmem S50x1 .f32) (harg7 : arg7.IsWhole) (arg8 : Memref sig .tc .vmem S100x50 .f32) (harg8 : arg8.IsWhole) (arg9 : Memref sig .tc .vmem S100x50 .f32) (harg9 : arg9.IsWhole)
  (x0 : Vec F S1x100x8192 .f32) (x1 : Vec F S1x50x8192 .f32) (xs0 : Vec F S100x1 .f32) (xs1 : Vec F S100x1 .f32) (xs2 : Vec F S50x1 .f32) (xs3 : Vec F S100x50 .f32) (xs4 : Vec F S100x50 .f32)

/-- Accumulator 0 after the last point of a batch. -/
theorem sout_0 (hc0 : ¬cond0_0 i) (hc1 : cond0_1 i) :
    sout0_C_0 c i arg2 harg2 arg3 harg3 arg4 harg4 arg5 harg5 arg6 harg6 arg7 harg7 arg8 harg8 arg9 harg9 hc0 hc1 x0 x1 xs0 xs1 xs2 xs3 xs4 = k0_pay14 x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

/-- Accumulator 1 after the last point of a batch. -/
theorem sout_1 (hc0 : ¬cond0_0 i) (hc1 : cond0_1 i) :
    sout0_C_1 c i arg2 harg2 arg3 harg3 arg4 harg4 arg5 harg5 arg6 harg6 arg7 harg7 arg8 harg8 arg9 harg9 hc0 hc1 x0 x1 xs0 xs1 xs2 xs3 xs4 = k0_pay15 x0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

/-- Accumulator 2 after the last point of a batch. -/
theorem sout_2 (hc0 : ¬cond0_0 i) (hc1 : cond0_1 i) :
    sout0_C_2 c i arg2 harg2 arg3 harg3 arg4 harg4 arg5 harg5 arg6 harg6 arg7 harg7 arg8 harg8 arg9 harg9 hc0 hc1 x0 x1 xs0 xs1 xs2 xs3 xs4 = k0_pay1 (k0_pay12 x1) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

/-- Accumulator 3 after the last point of a batch. -/
theorem sout_3 (hc0 : ¬cond0_0 i) (hc1 : cond0_1 i) :
    sout0_C_3 c i arg2 harg2 arg3 harg3 arg4 harg4 arg5 harg5 arg6 harg6 arg7 harg7 arg8 harg8 arg9 harg9 hc0 hc1 x0 x1 xs0 xs1 xs2 xs3 xs4 = k0_pay3 (k0_pay11 x0) (k0_pay12 x1) xs3 := by
  unfold sout0_C_3
  rw [View.read_writes_eq_canon _ _ _ (scover0_C_3 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

/-- Accumulator 4 after the last point of a batch. -/
theorem sout_4 (hc0 : ¬cond0_0 i) (hc1 : cond0_1 i) :
    sout0_C_4 c i arg2 harg2 arg3 harg3 arg4 harg4 arg5 harg5 arg6 harg6 arg7 harg7 arg8 harg8 arg9 harg9 hc0 hc1 x0 x1 xs0 xs1 xs2 xs3 xs4 = k0_pay4 (k0_pay12 x1) (k0_pay13 x0) xs4 := by
  unfold sout0_C_4
  rw [View.read_writes_eq_canon _ _ _ (scover0_C_4 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

/-- The output's block after the last point of a batch: the five grown accumulators combined. -/
theorem out_2 (hc0 : ¬cond0_0 i) (hc1 : cond0_1 i) :
    out0_C_2 c i arg2 harg2 arg3 harg3 arg4 harg4 arg5 harg5 arg6 harg6 arg7 harg7 arg8 harg8 arg9 harg9 hc0 hc1 x0 x1 xs0 xs1 xs2 xs3 xs4 = k0_pay5 (k0_pay14 x0 xs0) (k0_pay3 (k0_pay11 x0) (k0_pay12 x1) xs3) (k0_pay1 (k0_pay12 x1) xs2) (k0_pay15 x0 xs1) (k0_pay4 (k0_pay12 x1) (k0_pay13 x0) xs4) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2 xs3 xs4)]
  unfold kernelRun0_C
  dsimp only
  sl_unfold_words
  rw [View.canon_unit_zero hz3]
  simp only [View.readCov_unit_zero (S := S100x1) _ hz2, View.readCov_unit_zero (S := S50x1) _ hz2, View.readCov_unit_zero (S := S100x50) _ hz2]
  simp only [View.readAt_eq_ld, harg2.read_unread, harg3.read_unread, harg5.read_unread, harg6.read_unread, harg7.read_unread, harg8.read_unread, harg9.read_unread,
    View.ld_unit_zero (S := S1x100x8192) hz3, View.ld_unit_zero (S := S1x50x8192) hz3, View.ld_unit_zero (S := S100x1) hz2, View.ld_unit_zero (S := S50x1) hz2, View.ld_unit_zero (S := S100x50) hz2]

end Cert.KernelIdeal.PiecesC

end
-- ==== Proof.Spec.lean ====
/-
  The mathematics both programs compute, over the extended reals, with no program in sight.

  For a batch b, a query row q and a target row m, with x = X[b, q, ·] and t = T[b, m, ·] of length 65536:

    cost(b, q, m) =   (Σₖ softplus(xₖ)) / HW  -  (Σₖ xₖ·tₖ) / HW
                    + 1 - (2 · Σₖ σ(xₖ)·tₖ) / ((Σₖ σ(xₖ) + Σₖ tₖ) + ε)

  and the result adds the classification cost, 1 · CC(b, q, m), taken here as an abstract array.  The sums over the
  65536 positions are also read as eight consecutive tiles of 8192, accumulated tile by tile: `part f r` is the sum
  of the first r + 1 tiles, it grows by one tile per step, and after the eighth tile it is the whole sum.  Only
  commutativity and associativity of + on the extended reals are used, so nothing here needs finiteness.
-/
import Idealize.ShloMosaic.PureOps.Ideal
import Idealize.ShloMosaic.PureOps.Ideal.Laws
import Idealize.ShloMosaic.Lib.ValueIdx

noncomputable section

namespace Cert.MaskDice

open Idealize.ShloMosaic Idealize.ShloMosaic.ValueIdx

/-- softplus as both programs spell it: max(x, 0) + log(1 + e^(-|x|)). -/
def sp (x : EReal) : EReal := max x 0 + Ideal.log1p (Ideal.exp (-(max x (-x))))

/-- the literal words both programs share, never evaluated: HW = 65536, ε, 2, 1. -/
def hw : EReal := Ideal.ofBits .f32 0x47800000#32
def eps : EReal := Ideal.ofBits .f32 0x358637BD#32
def two : EReal := Ideal.ofBits .f32 0x40000000#32
def one : EReal := Ideal.ofBits .f32 0x3F800000#32

/-- The mask cost plus the dice cost from the five whole-row sums. -/
def combine (sSp sXt sT sSg sSt : EReal) : EReal :=
  (Ideal.div sSp hw - Ideal.div sXt hw) + (one - Ideal.div (two * sSt) ((sSg + sT) + eps))

/-- The mask + dice cost at (b, q, m) of the flattened masks X [4,100,65536] and T [4,50,65536]. -/
def maskDice (X : (⟨3, ![4, 100, 65536]⟩ : Shape).Idx → EReal) (T : (⟨3, ![4, 50, 65536]⟩ : Shape).Idx → EReal)
    (b : Fin 4) (q : Fin 100) (mm : Fin 50) : EReal :=
  combine (∑ k : Fin 65536, sp (X (ix3 b q k))) (∑ k : Fin 65536, X (ix3 b q k) * T (ix3 b mm k))
    (∑ k : Fin 65536, T (ix3 b mm k)) (∑ k : Fin 65536, Ideal.logistic (X (ix3 b q k)))
    (∑ k : Fin 65536, Ideal.logistic (X (ix3 b q k)) * T (ix3 b mm k))

/-- The whole cost matrix: 1 · CC + (mask + dice). -/
def total (CC : (⟨3, ![4, 100, 50]⟩ : Shape).Idx → EReal) (X : (⟨3, ![4, 100, 65536]⟩ : Shape).Idx → EReal)
    (T : (⟨3, ![4, 50, 65536]⟩ : Shape).Idx → EReal) : (⟨3, ![4, 100, 50]⟩ : Shape).Idx → EReal :=
  fun i => one * CC i + maskDice X T (i 0) (i 1) (i 2)

/-! ## Eight tiles of 8192 -/

/-- Position j of tile a, as a position of the row (total in a: reduced mod 65536). -/
def colN (a : ℕ) (j : Fin 8192) : Fin 65536 := ⟨(a * 8192 + j.val) % 65536, Nat.mod_lt _ (by norm_num)⟩

/-- The batch a grid point works on (total in n: reduced mod 4). -/
def bOf (n : ℕ) : Fin 4 := ⟨n / 8 % 4, Nat.mod_lt _ (by norm_num)⟩

/-- The sum of the first r + 1 tiles. -/
def part (f : Fin 65536 → EReal) (r : ℕ) : EReal := ∑ a ∈ Finset.range (r + 1), ∑ j : Fin 8192, f (colN a j)

theorem part_zero (f : Fin 65536 → EReal) : part f 0 = ∑ j : Fin 8192, f (colN 0 j) := by
  unfold part; rw [Finset.sum_range_one]

theorem part_succ (f : Fin 65536 → EReal) (r : ℕ) : part f (r + 1) = part f r + ∑ j : Fin 8192, f (colN (r + 1) j) := by
  unfold part; rw [Finset.sum_range_succ]

/-- Positions of the row are (tile, position in the tile). -/
def tileEquiv : Fin 8 × Fin 8192 ≃ Fin 65536 where
  toFun x := colN x.1.val x.2
  invFun k := (⟨k.val / 8192, by have := k.isLt; omega⟩, ⟨k.val % 8192, Nat.mod_lt _ (by norm_num)⟩)
  left_inv x := by
    obtain ⟨a, j⟩ := x
    have ha := a.isLt; have hj := j.isLt
    apply Prod.ext
    · apply Fin.ext; show (a.val * 8192 + j.val) % 65536 / 8192 = a.val; omega
    · apply Fin.ext; show (a.val * 8192 + j.val) % 65536 % 8192 = j.val; omega
  right_inv k := by
    have hk := k.isLt
    apply Fin.ext; show (k.val / 8192 * 8192 + k.val % 8192) % 65536 = k.val; omega

/-- After the eighth tile the running sum is the whole sum. -/
theorem part_seven (f : Fin 65536 → EReal) : part f 7 = ∑ k : Fin 65536, f k := by
  unfold part
  rw [← Fin.sum_univ_eq_sum_range (fun a => ∑ j : Fin 8192, f (colN a j)) 8, ← Fintype.sum_prod_type']
  exact Fintype.sum_equiv tileEquiv _ _ (fun x => rfl)

/-- One accumulation step: the old running sum plus this tile's sum is the next running sum. -/
theorem part_step (f : Fin 65536 → EReal) (r : ℕ) (old tile : EReal) (hold : old = part f r)
    (htile : tile = ∑ j : Fin 8192, f (colN (r + 1) j)) : old + tile = part f (r + 1) := by
  rw [part_succ, hold, htile]

/-- The first step, from the zeroed accumulator. -/
theorem part_first (f : Fin 65536 → EReal) (tile : EReal) (htile : tile = ∑ j : Fin 8192, f (colN 0 j)) :
    (0 : EReal) + tile = part f 0 := by
  rw [part_zero, htile, zero_add]

end Cert.MaskDice

end
-- ==== Proof.LibKeepdims.lean ====
/-
  Two layout operations of a sum taken with the reduced axis kept, read at an index.  A vector of length a viewed as
  a column [a, 1] holds, at (i, 0), the vector's entry i; a column [a, 1] broadcast along a new second axis to [a, b]
  holds, at (i, c), the column's entry (i, 0).  Together they say that a row-wise quantity, kept as a column and
  spread over a block, is read at (i, c) as the quantity of row i.
-/
import Idealize.ShloMosaic.Lib.Pipeline.Value
import Idealize.ShloMosaic.Lib.ValueIdx

namespace Idealize.ShloMosaic.ValueIdx

variable {α : Type}

/-- A vector [a] cast to a column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, c), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.Pay.lean ====
/-
  What one grid point's arithmetic does to each accumulator, read at an index over the extended reals.

  A grid point holds a tile x of the predicted masks ([1,100,8192]) and a tile t of the target masks ([1,50,8192]).
  Each of the five accumulators grows by this tile's contribution:
    row q of the softplus accumulator by  Σⱼ softplus(x[q,j]),   row q of the sigmoid accumulator by  Σⱼ σ(x[q,j]),
    row m of the target accumulator by    Σⱼ t[m,j],
    entry (q,m) of the two product accumulators by  Σⱼ x[q,j]·t[m,j]  and  Σⱼ σ(x[q,j])·t[m,j]
  (the products' operands pass through a change of float format, the identity on extended reals, and the matrix unit
  starts from a zero accumulator).  The first point of a batch stores zeros first.  The last point of a batch combines
  the five accumulators into the mask cost plus the dice cost.
-/
import proofs.«154864_j29695403884993_1_alg».proof.Proof.Gen.KernelIdeal.Skeleton
import proofs.«154864_j29695403884993_1_alg».proof.Proof.Spec
import proofs.«154864_j29695403884993_1_alg».proof.Proof.LibKeepdims
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.MaskDice Idealize.ShloMosaic Idealize.ShloMosaic.ValueIdx

/-- The kernel's softplus of one element: the not-a-number guard compares a value with itself, which never differs
    on the extended reals, so the guarded branch is max(x,0) + log(1 + e^(0 - |x - 0|)). -/
theorem sp_kernel (x : EReal) :
    Scalar.select (Ideal.cmp .one (x - Ideal.ofBits .f32 0x00000000#32) (x - Ideal.ofBits .f32 0x00000000#32)) (x + Ideal.ofBits .f32 0x00000000#32)
      (max x (Ideal.ofBits .f32 0x00000000#32) + Ideal.log1p (Ideal.exp (Ideal.ofBits .f32 0x00000000#32 - max (x - Ideal.ofBits .f32 0x00000000#32) (-(x - Ideal.ofBits .f32 0x00000000#32))))) = sp x := by
  rw [Ideal.ofBits_zero_f32]
  have h : Ideal.cmp .one (x - 0) (x - 0) = 0#1 := by simp [Ideal.cmp]
  rw [h, select_zero, sub_zero, zero_sub]
  rfl

theorem lift100 (q : Fin 100) (k : Fin 8192) : reduces_S100x8192_S100.lift (ix1 q) k = ix2 q k := by
  funext a
  match a with
  | ⟨0, _⟩ => exact Fin.ext rfl
  | ⟨1, _⟩ => exact Fin.ext rfl

theorem lift50 (q : Fin 50) (k : Fin 8192) : reduces_S50x8192_S50.lift (ix1 q) k = ix2 q k := by
  funext a
  match a with
  | ⟨0, _⟩ => exact Fin.ext rfl
  | ⟨1, _⟩ => exact Fin.ext rfl

/-- A lane sum of a [100,8192] tile at row q is the sum over the 8192 lanes. -/
theorem rowsum100 (src : FVec Ideal S100x8192 .f32) (hφ : FKind.Formats .f32) (hacc : (0x00000000#32 : BitVec 32) = 0x00000000#32) (q : Fin 100) :
    multiReduction .add [1] S100 src 0x00000000#32 reduces_S100x8192_S100 hφ hacc (ix1 q) = ∑ k : Fin 8192, src (ix2 q k) :=
  (Ideal.multiReduction_add_single src _ reduces_S100x8192_S100 hφ hacc (ix1 q)).trans
    (Finset.sum_congr rfl fun k _ => congrArg src (lift100 q k))

/-- A lane sum of a [50,8192] tile at row m is the sum over the 8192 lanes. -/
theorem rowsum50 (src : FVec Ideal S50x8192 .f32) (hφ : FKind.Formats .f32) (hacc : (0x00000000#32 : BitVec 32) = 0x00000000#32) (q : Fin 50) :
    multiReduction .add [1] S50 src 0x00000000#32 reduces_S50x8192_S50 hφ hacc (ix1 q) = ∑ k : Fin 8192, src (ix2 q k) :=
  (Ideal.multiReduction_add_single src _ reduces_S50x8192_S50 hφ hacc (ix1 q)).trans
    (Finset.sum_congr rfl fun k _ => congrArg src (lift50 q k))

/-! ## The matrix product of a [100,8192] tile with a [50,8192] tile, contracting the lanes -/

abbrev DD := dot_S100x8192_S50x8192_S100x50_1_1_0_0_n_n

theorem lhsD_0 (i : S100x50.Idx) (q : DD.contr.Idx) : (DD.lhsIdx i q 0).val = (i 0).val := by
  unfold DotDims.lhsIdx
  rw [dif_neg (show ¬(0 : Fin S100x8192.rank) ∈ DD.lhsBatch by decide), dif_pos (show (0 : Fin S100x8192.rank) ∈ DD.lhsNonContracting by decide)]
  rfl
theorem lhsD_1 (i : S100x50.Idx) (q : DD.contr.Idx) : (DD.lhsIdx i q 1).val = (q ⟨0, by decide⟩).val :=
  DD.lhsIdx_val_of_single rfl i q
theorem rhsD_0 (i : S100x50.Idx) (q : DD.contr.Idx) : (DD.rhsIdx i q 0).val = (i 1).val := by
  unfold DotDims.rhsIdx
  rw [dif_neg (show ¬(0 : Fin S50x8192.rank) ∈ DD.rhsBatch by decide), dif_pos (show (0 : Fin S50x8192.rank) ∈ DD.rhsNonContracting by decide)]
  rfl
theorem rhsD_1 (i : S100x50.Idx) (q : DD.contr.Idx) : (DD.rhsIdx i q 1).val = (q ⟨0, by decide⟩).val :=
  DD.rhsIdx_val_of_single rfl i q

/-- Into the zero accumulator, entry (q,m) of the product is Σₖ l[q,k]·r[m,k]. -/
theorem matmulD_apply (l : FVec Ideal S100x8192 .bf16) (r : FVec Ideal S50x8192 .bf16) (q : Fin 100) (mm : Fin 50) :
    matmul DD none l r (constant (F := Ideal) S100x50 .f32 0x00000000#32) (ix2 q mm) = ∑ k : Fin 8192, l (ix2 q k) * r (ix2 mm k) := by
  simp only [matmul]
  rw [Ideal.matmul_constant_zero_apply, ← Equiv.sum_comp (contrEquiv1 DD 8192 rfl rfl).symm]
  refine Finset.sum_congr rfl fun k _ => ?_
  have hk := contrEquiv1_symm_val DD 8192 rfl rfl k
  have el : DD.lhsIdx (ix2 q mm) ((contrEquiv1 DD 8192 rfl rfl).symm k) = ix2 q k := funext fun a => Fin.ext (by
    match a with
    | ⟨0, _⟩ => exact lhsD_0 _ _
    | ⟨1, _⟩ => exact (lhsD_1 _ _).trans hk)
  have er : DD.rhsIdx (ix2 q mm) ((contrEquiv1 DD 8192 rfl rfl).symm k) = ix2 mm k := funext fun a => Fin.ext (by
    match a with
    | ⟨0, _⟩ => exact rhsD_0 _ _
    | ⟨1, _⟩ => exact (rhsD_1 _ _).trans hk)
  rw [el, er]

/-! ## The five accumulator steps -/

/-- The softplus accumulator after a step: its old value plus this tile's row sum of softplus. -/
theorem pay14_apply (x0 : Vec Ideal S1x100x8192 .f32) (s : Vec Ideal S100x1 .f32) (q : Fin 100) (u : Fin 1) :
    k0_pay14 (F := Ideal) x0 s (ix2 q u) = s (ix2 q u) + ∑ j : Fin 8192, sp (x0 (ix3 (0 : Fin 1) q j)) := by
  unfold k0_pay14 k0_pay11
  dsimp only
  rw [shapeCast_self, addf_apply, shapeCast_a_a1_apply, rowsum100]
  refine congrArg (s (ix2 q u) + ·) (Finset.sum_congr rfl fun j _ => ?_)
  exact (sp_kernel (shapeCast S100x8192 x0 shapeCasts_S1x100x8192_S100x8192 (ix2 q j))).trans
    (congrArg sp (shapeCast_1ab_ab_apply x0 _ q j))

/-- The sigmoid accumulator after a step: its old value plus this tile's row sum of σ. -/
theorem pay15_apply (x0 : Vec Ideal S1x100x8192 .f32) (s : Vec Ideal S100x1 .f32) (q : Fin 100) (u : Fin 1) :
    k0_pay15 (F := Ideal) x0 s (ix2 q u) = s (ix2 q u) + ∑ j : Fin 8192, Ideal.logistic (x0 (ix3 (0 : Fin 1) q j)) := by
  unfold k0_pay15 k0_pay13 k0_pay11
  dsimp only
  rw [shapeCast_self, addf_apply, shapeCast_a_a1_apply, rowsum100]
  refine congrArg (s (ix2 q u) + ·) (Finset.sum_congr rfl fun j _ => ?_)
  exact congrArg Ideal.logistic (shapeCast_1ab_ab_apply x0 _ q j)

/-- The target-mask accumulator after a step: its old value plus this tile's row sum. -/
theorem pay1_apply (x1 : Vec Ideal S1x50x8192 .f32) (s : Vec Ideal S50x1 .f32) (mm : Fin 50) (u : Fin 1) :
    k0_pay1 (F := Ideal) (k0_pay12 x1) s (ix2 mm u) = s (ix2 mm u) + ∑ j : Fin 8192, x1 (ix3 (0 : Fin 1) mm j) := by
  unfold k0_pay1 k0_pay12
  dsimp only
  rw [shapeCast_self, addf_apply, shapeCast_a_a1_apply, rowsum50]
  refine congrArg (s (ix2 mm u) + ·) (Finset.sum_congr rfl fun j _ => ?_)
  exact shapeCast_1ab_ab_apply x1 _ mm j

/-- The x·t accumulator after a step: its old value plus this tile's inner products. -/
theorem pay3_apply (x0 : Vec Ideal S1x100x8192 .f32) (x1 : Vec Ideal S1x50x8192 .f32) (s : Vec Ideal S100x50 .f32) (q : Fin 100) (mm : Fin 50) :
    k0_pay3 (F := Ideal) (k0_pay11 x0) (k0_pay12 x1) s (ix2 q mm)
      = s (ix2 q mm) + ∑ j : Fin 8192, x0 (ix3 (0 : Fin 1) q j) * x1 (ix3 (0 : Fin 1) mm j) := by
  unfold k0_pay3 k0_pay2 k0_pay11 k0_pay12
  dsimp only
  rw [shapeCast_self, addf_apply]
  refine congrArg (s (ix2 q mm) + ·) ((matmulD_apply _ _ q mm).trans (Finset.sum_congr rfl fun j _ => ?_))
  exact congrArg₂ (· * ·) (shapeCast_1ab_ab_apply x0 _ q j) (shapeCast_1ab_ab_apply x1 _ mm j)

/-- The σ(x)·t accumulator after a step: its old value plus this tile's inner products. -/
theorem pay4_apply (x0 : Vec Ideal S1x100x8192 .f32) (x1 : Vec Ideal S1x50x8192 .f32) (s : Vec Ideal S100x50 .f32) (q : Fin 100) (mm : Fin 50) :
    k0_pay4 (F := Ideal) (k0_pay12 x1) (k0_pay13 x0) s (ix2 q mm)
      = s (ix2 q mm) + ∑ j : Fin 8192, Ideal.logistic (x0 (ix3 (0 : Fin 1) q j)) * x1 (ix3 (0 : Fin 1) mm j) := by
  unfold k0_pay4 k0_pay2 k0_pay13 k0_pay11 k0_pay12
  dsimp only
  rw [shapeCast_self, addf_apply]
  refine congrArg (s (ix2 q mm) + ·) ((matmulD_apply _ _ q mm).trans (Finset.sum_congr rfl fun j _ => ?_))
  exact congrArg₂ (· * ·) (congrArg Ideal.logistic (shapeCast_1ab_ab_apply x0 _ q j)) (shapeCast_1ab_ab_apply x1 _ mm j)

/-! ## The zeros the first point of a batch stores -/

theorem pay6_apply (i : S100x1.Idx) : k0_pay6 (F := Ideal) i = 0 := by
  unfold k0_pay6; rw [shapeCast_self]; exact Ideal.ofBits_zero_f32
theorem pay7_apply (i : S100x1.Idx) : k0_pay7 (F := Ideal) i = 0 := by
  unfold k0_pay7; rw [shapeCast_self]; exact Ideal.ofBits_zero_f32
theorem pay8_apply (i : S50x1.Idx) : k0_pay8 (F := Ideal) i = 0 := by
  unfold k0_pay8; rw [shapeCast_self]; exact Ideal.ofBits_zero_f32
theorem pay9_apply (i : S100x50.Idx) : k0_pay9 (F := Ideal) i = 0 := by
  unfold k0_pay9; rw [shapeCast_self]; exact Ideal.ofBits_zero_f32
theorem pay10_apply (i : S100x50.Idx) : k0_pay10 (F := Ideal) i = 0 := by
  unfold k0_pay10; rw [shapeCast_self]; exact Ideal.ofBits_zero_f32

/-! ## The last point of a batch -/

/-- Entry (q,m) of the block the last point stores: the mask cost plus the dice cost of the five accumulators' entries. -/
theorem pay5_apply (v61 : Vec Ideal S100x1 .f32) (v64 : Vec Ideal S100x50 .f32) (v69 : Vec Ideal S50x1 .f32)
    (v71 : Vec Ideal S100x1 .f32) (v77 : Vec Ideal S100x50 .f32) (u : Fin 1) (q : Fin 100) (mm : Fin 50) :
    k0_pay5 (F := Ideal) v61 v64 v69 v71 v77 (ix3 u q mm)
      = combine (v61 (ix2 q (0 : Fin 1))) (v64 (ix2 q mm)) (v69 (ix2 mm (0 : Fin 1))) (v71 (ix2 q (0 : Fin 1))) (v77 (ix2 q mm)) := by
  unfold k0_pay5
  dsimp only
  rw [shapeCast_ab_1ab_apply]
  simp only [addf_apply, subf_apply, divf_apply, mulf_apply, broadcast_apply, broadcastTo_a1_ab_apply, broadcastTo_1b_ab_apply,
    transpose_ix2_apply]
  rw [show transpose S1x50 [1, 0] v69 transposes_S50x1_p1_0_S1x50 (ix2 (0 : Fin 1) mm) = v69 (ix2 mm (0 : Fin 1)) from
    transpose_ix2_apply v69 _ 0 mm]
  rfl

end Cert.KernelIdeal.Pay

end
-- ==== Proof.Step.lean ====
/-
  The five accumulators as one tuple, and what they hold tile after tile.

  One grid point maps the tuple s to `stepT x t s`: each accumulator grown by the contribution of the point's tiles x and
  t.  If, for batch b, the tuple holds the sums over the first r + 1 tiles of the rows of X[b] and T[b] (`Holds`), and the
  point's tiles are tile r + 1 of those rows, then the grown tuple holds the sums over the first r + 2 tiles; from zeros
  and tile 0 it holds the first tile's sums.  After the eighth tile the sums are the whole-row sums, and the block the last
  point stores is the mask cost plus the dice cost of batch b.
-/
import proofs.«154864_j29695403884993_1_alg».proof.Proof.Pay

noncomputable section

namespace Cert.KernelIdeal.Step

open Cert.KernelIdeal Cert.KernelIdeal.Gen Cert.KernelIdeal.Pay Cert.MaskDice Idealize.ShloMosaic Idealize.ShloMosaic.ValueIdx

variable {F : FTy → Type} [FloatOps F]

/-- The five accumulators: softplus row sums, sigmoid row sums, target row sums, x·t, σ(x)·t. -/
abbrev Acc (F : FTy → Type) : Type :=
  Vec F S100x1 .f32 × Vec F S100x1 .f32 × Vec F S50x1 .f32 × Vec F S100x50 .f32 × Vec F S100x50 .f32

/-- The zeros the first point of a batch stores. -/
def zeroT : Acc F := (k0_pay6, k0_pay7, k0_pay8, k0_pay9, k0_pay10)

/-- One grid point's effect on the accumulators. -/
def stepT (x0 : Vec F S1x100x8192 .f32) (x1 : Vec F S1x50x8192 .f32) (s : Acc F) : Acc F :=
  (k0_pay14 x0 s.1, k0_pay15 x0 s.2.1, k0_pay1 (k0_pay12 x1) s.2.2.1,
    k0_pay3 (k0_pay11 x0) (k0_pay12 x1) s.2.2.2.1, k0_pay4 (k0_pay12 x1) (k0_pay13 x0) s.2.2.2.2)

/-- The block the last point of a batch stores, from the accumulators. -/
def outT (s : Acc F) : Vec F S1x100x50 .f32 := k0_pay5 s.1 s.2.2.2.1 s.2.2.1 s.2.1 s.2.2.2.2

/-- The accumulators hold, for batch b, the sums over the first r + 1 tiles. -/
def Holds (X : (⟨3, ![4, 100, 65536]⟩ : Shape).Idx → EReal) (T : (⟨3, ![4, 50, 65536]⟩ : Shape).Idx → EReal)
    (b : Fin 4) (r : ℕ) (s : Acc Ideal) : Prop :=
  (∀ (q : Fin 100) (u : Fin 1), s.1 (ix2 q u) = part (fun k => sp (X (ix3 b q k))) r) ∧
  (∀ (q : Fin 100) (u : Fin 1), s.2.1 (ix2 q u) = part (fun k => Ideal.logistic (X (ix3 b q k))) r) ∧
  (∀ (mm : Fin 50) (u : Fin 1), s.2.2.1 (ix2 mm u) = part (fun k => T (ix3 b mm k)) r) ∧
  (∀ (q : Fin 100) (mm : Fin 50), s.2.2.2.1 (ix2 q mm) = part (fun k => X (ix3 b q k) * T (ix3 b mm k)) r) ∧
  (∀ (q : Fin 100) (mm : Fin 50), s.2.2.2.2 (ix2 q mm) = part (fun k => Ideal.logistic (X (ix3 b q k)) * T (ix3 b mm k)) r)

variable (X : (⟨3, ![4, 100, 65536]⟩ : Shape).Idx → EReal) (T : (⟨3, ![4, 50, 65536]⟩ : Shape).Idx → EReal) (b : Fin 4)
  (x0 : Vec Ideal S1x100x8192 .f32) (x1 : Vec Ideal S1x50x8192 .f32)

/-- From zeros and tile 0: the first tile's sums. -/
theorem holds_first (hx0 : ∀ (q : Fin 100) (j : Fin 8192), x0 (ix3 (0 : Fin 1) q j) = X (ix3 b q (colN 0 j)))
    (hx1 : ∀ (mm : Fin 50) (j : Fin 8192), x1 (ix3 (0 : Fin 1) mm j) = T (ix3 b mm (colN 0 j))) :
    Holds X T b 0 (stepT x0 x1 zeroT) := by
  refine ⟨fun q u => ?_, fun q u => ?_, fun mm u => ?_, fun q mm => ?_, fun q mm => ?_⟩
  · show k0_pay14 x0 (k0_pay6 (F := Ideal)) (ix2 q u) = _
    rw [pay14_apply, pay6_apply]
    exact part_first _ _ (Finset.sum_congr rfl fun j _ => by rw [hx0])
  · show k0_pay15 x0 (k0_pay7 (F := Ideal)) (ix2 q u) = _
    rw [pay15_apply, pay7_apply]
    exact part_first _ _ (Finset.sum_congr rfl fun j _ => by rw [hx0])
  · show k0_pay1 (k0_pay12 x1) (k0_pay8 (F := Ideal)) (ix2 mm u) = _
    rw [pay1_apply, pay8_apply]
    exact part_first _ _ (Finset.sum_congr rfl fun j _ => by rw [hx1])
  · show k0_pay3 (k0_pay11 x0) (k0_pay12 x1) (k0_pay9 (F := Ideal)) (ix2 q mm) = _
    rw [pay3_apply, pay9_apply]
    exact part_first _ _ (Finset.sum_congr rfl fun j _ => by rw [hx0, hx1])
  · show k0_pay4 (k0_pay12 x1) (k0_pay13 x0) (k0_pay10 (F := Ideal)) (ix2 q mm) = _
    rw [pay4_apply, pay10_apply]
    exact part_first _ _ (Finset.sum_congr rfl fun j _ => by rw [hx0, hx1])

/-- From the first r + 1 tiles' sums and tile r + 1: the first r + 2 tiles' sums. -/
theorem holds_step (r : ℕ) (s : Acc Ideal) (h : Holds X T b r s)
    (hx0 : ∀ (q : Fin 100) (j : Fin 8192), x0 (ix3 (0 : Fin 1) q j) = X (ix3 b q (colN (r + 1) j)))
    (hx1 : ∀ (mm : Fin 50) (j : Fin 8192), x1 (ix3 (0 : Fin 1) mm j) = T (ix3 b mm (colN (r + 1) j))) :
    Holds X T b (r + 1) (stepT x0 x1 s) := by
  refine ⟨fun q u => ?_, fun q u => ?_, fun mm u => ?_, fun q mm => ?_, fun q mm => ?_⟩
  · show k0_pay14 x0 s.1 (ix2 q u) = _
    rw [pay14_apply]
    exact part_step _ r _ _ (h.1 q u) (Finset.sum_congr rfl fun j _ => by rw [hx0])
  · show k0_pay15 x0 s.2.1 (ix2 q u) = _
    rw [pay15_apply]
    exact part_step _ r _ _ (h.2.1 q u) (Finset.sum_congr rfl fun j _ => by rw [hx0])
  · show k0_pay1 (k0_pay12 x1) s.2.2.1 (ix2 mm u) = _
    rw [pay1_apply]
    exact part_step _ r _ _ (h.2.2.1 mm u) (Finset.sum_congr rfl fun j _ => by rw [hx1])
  · show k0_pay3 (k0_pay11 x0) (k0_pay12 x1) s.2.2.2.1 (ix2 q mm) = _
    rw [pay3_apply]
    exact part_step _ r _ _ (h.2.2.2.1 q mm) (Finset.sum_congr rfl fun j _ => by rw [hx0, hx1])
  · show k0_pay4 (k0_pay12 x1) (k0_pay13 x0) s.2.2.2.2 (ix2 q mm) = _
    rw [pay4_apply]
    exact part_step _ r _ _ (h.2.2.2.2 q mm) (Finset.sum_congr rfl fun j _ => by rw [hx0, hx1])

/-- With all eight tiles summed, the stored block is the mask cost plus the dice cost of batch b. -/
theorem out_of_holds (s : Acc Ideal) (h : Holds X T b 7 s) (u : Fin 1) (q : Fin 100) (mm : Fin 50) :
    outT s (ix3 u q mm) = maskDice X T b q mm := by
  show k0_pay5 s.1 s.2.2.2.1 s.2.2.1 s.2.1 s.2.2.2.2 (ix3 u q mm) = _
  rw [pay5_apply, h.1 q 0, h.2.2.2.1 q mm, h.2.2.1 mm 0, h.2.1 q 0, h.2.2.2.2 q mm]
  simp only [part_seven]
  rfl

end Cert.KernelIdeal.Step

end
-- ==== Proof.KVal.lean ====
/-
  The kernel's mask + dice array, read off its run.

  The grid is 4 batches × 8 tiles, visited batch by batch: point n works on batch n / 8 and tile n % 8, and reads tile
  n % 8 of rows X[n / 8, q, ·] and T[n / 8, m, ·].  By induction on the point, after point n the five accumulators hold the
  sums over tiles 0 … n % 8 of batch n / 8 (zeroed at tile 0, grown by one tile per point).  Only the last point of a batch
  (tile 7) writes its block back, and that block — rows (n / 8, ·, ·) of the [4,100,50] array — is the mask cost plus the
  dice cost from the whole-row sums.  The four written blocks cover the array.
-/
import proofs.«154864_j29695403884993_1_alg».proof.Proof.Gen.KernelIdeal.Frame
import proofs.«154864_j29695403884993_1_alg».proof.Proof.PiecesA
import proofs.«154864_j29695403884993_1_alg».proof.Proof.PiecesB
import proofs.«154864_j29695403884993_1_alg».proof.Proof.PiecesC
import proofs.«154864_j29695403884993_1_alg».proof.Proof.Step
import Idealize.ShloMosaic.Lib.Pipeline.Value

set_option maxRecDepth 16384

noncomputable section

namespace Cert.KernelIdeal.KVal

open Cert.KernelIdeal Cert.KernelIdeal.Gen Cert.KernelIdeal.Step Cert.MaskDice
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Where each window's block sits at point t: batch t / 8, all rows, tile t % 8 (the output: batch t / 8). -/
theorem idx0 : ∀ t : Fin cfg0.N, win0_0.index t (0 : Fin 3) = t.val / 8 ∧ win0_0.index t (1 : Fin 3) = 0 ∧ win0_0.index t (2 : Fin 3) = t.val % 8 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = t.val % 8 :=
  (by decide +kernel : ∀ t : Fin grid0.N, _)
theorem idx2 : ∀ t : Fin cfg0.N, win0_2.index t (0 : Fin 3) = t.val / 8 ∧ win0_2.index t (1 : Fin 3) = 0 ∧ win0_2.index t (2 : Fin 3) = 0 :=
  (by decide +kernel : ∀ t : Fin grid0.N, _)

/-- The predicted-mask tile at point t, entry (q, j): X[t / 8, q, (t % 8)·8192 + j]. -/
theorem iblk0_apply (c : Dev nD) (t : Fin cfg0.N) (q : Fin 100) (j : Fin 8192) :
    (iblk m c 0 t : Vec Ideal S1x100x8192 .f32) (ix3 (0 : Fin 1) q j) = V m c main_v14 (ix3 (bOf t.val) q (colN (t.val % 8) j)) := by
  have hN : t.val < 32 := lt_of_lt_of_eq t.isLt (show cfg0.N = 32 from N_0)
  obtain ⟨h0, h1, h2⟩ := idx0 t
  have hj := j.isLt
  unfold iblk
  rw [View.read_apply]
  show V m c main_v14 _ = V m c main_v14 _
  refine congrArg (V m c main_v14) (funext fun a => Fin.ext ?_)
  match a with
  | ⟨0, _⟩ => show win0_0.index t (0 : Fin 3) * 1 + 1 * 0 = t.val / 8 % 4; rw [h0]; omega
  | ⟨1, _⟩ => show win0_0.index t (1 : Fin 3) * 100 + 1 * q.val = q.val; rw [h1]; omega
  | ⟨2, _⟩ => show win0_0.index t (2 : Fin 3) * 8192 + 1 * j.val = (t.val % 8 * 8192 + j.val) % 65536; rw [h2]; omega

/-- The target-mask tile at point t, entry (m, j): T[t / 8, m, (t % 8)·8192 + j]. -/
theorem iblk1_apply (c : Dev nD) (t : Fin cfg0.N) (mm : Fin 50) (j : Fin 8192) :
    (iblk m c 1 t : Vec Ideal S1x50x8192 .f32) (ix3 (0 : Fin 1) mm j) = V m c main_v15 (ix3 (bOf t.val) mm (colN (t.val % 8) j)) := by
  have hN : t.val < 32 := lt_of_lt_of_eq t.isLt (show cfg0.N = 32 from N_0)
  obtain ⟨h0, h1, h2⟩ := idx1 t
  have hj := j.isLt
  unfold iblk
  rw [View.read_apply]
  show V m c main_v15 _ = V m c main_v15 _
  refine congrArg (V m c main_v15) (funext fun a => Fin.ext ?_)
  match a with
  | ⟨0, _⟩ => show win0_1.index t (0 : Fin 3) * 1 + 1 * 0 = t.val / 8 % 4; rw [h0]; omega
  | ⟨1, _⟩ => show win0_1.index t (1 : Fin 3) * 50 + 1 * mm.val = mm.val; rw [h1]; omega
  | ⟨2, _⟩ => show win0_1.index t (2 : Fin 3) * 8192 + 1 * j.val = (t.val % 8 * 8192 + j.val) % 65536; rw [h2]; omega

/-! ## The accumulators after each point, as steps of the tuple -/

/-- A first point of a batch: zeros, grown by its tiles. -/
theorem outs_A (c : Dev nD) (t : Fin cfg0.N) (h0 : t.val % 8 = 0) (h1 : ¬t.val % 8 = 7) :
    (outsAt0 m c t.val t.isLt).2 = stepT (iblk m c 0 t) (iblk m c 1 t) zeroT := by
  rw [outsAt0_A m c t h0 h1]
  dsimp only
  rw [PiecesA.sout_0, PiecesA.sout_1, PiecesA.sout_2, PiecesA.sout_3, PiecesA.sout_4]
  rfl

/-- A middle point of a batch: what the point before left, grown by its tiles. -/
theorem outs_B (c : Dev nD) (t : Fin cfg0.N) (h0 : ¬t.val % 8 = 0) (h1 : ¬t.val % 8 = 7) :
    (outsAt0 m c t.val t.isLt).2 = stepT (iblk m c 0 t) (iblk m c 1 t) (outsAt0 m c (t.val - 1) (Nat.lt_of_le_of_lt (Nat.sub_le _ _) t.isLt)).2 := by
  rw [outsAt0_B m c t h0 h1]
  dsimp only
  rw [PiecesB.sout_0, PiecesB.sout_1, PiecesB.sout_2, PiecesB.sout_3, PiecesB.sout_4]
  rfl

/-- The last point of a batch: the same for the accumulators, -/
theorem outs_C (c : Dev nD) (t : Fin cfg0.N) (h0 : ¬t.val % 8 = 0) (h1 : t.val % 8 = 7) :
    (outsAt0 m c t.val t.isLt).2 = stepT (iblk m c 0 t) (iblk m c 1 t) (outsAt0 m c (t.val - 1) (Nat.lt_of_le_of_lt (Nat.sub_le _ _) t.isLt)).2 := by
  rw [outsAt0_C m c t h0 h1]
  dsimp only
  rw [PiecesC.sout_0, PiecesC.sout_1, PiecesC.sout_2, PiecesC.sout_3, PiecesC.sout_4]
  rfl

/-- and the output's block is the grown accumulators combined. -/
theorem out_C (c : Dev nD) (t : Fin cfg0.N) (h0 : ¬t.val % 8 = 0) (h1 : t.val % 8 = 7) :
    (outsAt0 m c t.val t.isLt).1 = outT (outsAt0 m c t.val t.isLt).2 := by
  rw [outs_C m c t h0 h1, outsAt0_C m c t h0 h1]
  dsimp only
  rw [PiecesC.out_2]
  rfl

/-! ## The invariant -/

/-- After point n the accumulators hold the sums over tiles 0 … n % 8 of batch n / 8. -/
theorem holds_at (c : Dev nD) : ∀ (n : ℕ) (h : n < cfg0.N),
    Holds (V m c main_v14) (V m c main_v15) (bOf n) (n % 8) (outsAt0 m c n h).2
  | 0, h => by
    rw [outs_A m c ⟨0, h⟩ rfl (by show ¬((0 : ℕ) % 8 = 7); decide)]
    exact holds_first _ _ _ _ _ (fun q j => iblk0_apply m c ⟨0, h⟩ q j) (fun mm j => iblk1_apply m c ⟨0, h⟩ mm j)
  | n + 1, h => by
    have hN : n + 1 < 32 := lt_of_lt_of_eq h (show cfg0.N = 32 from N_0)
    by_cases h0 : (n + 1) % 8 = 0
    · have h1 : ¬(n + 1) % 8 = 7 := by omega
      rw [outs_A m c ⟨n + 1, h⟩ h0 h1, h0]
      exact holds_first _ _ _ _ _
        (fun q j => (iblk0_apply m c ⟨n + 1, h⟩ q j).trans (by
          show V m c main_v14 (ix3 (bOf (n + 1)) q (colN ((n + 1) % 8) j)) = _; rw [h0]))
        (fun mm j => (iblk1_apply m c ⟨n + 1, h⟩ mm j).trans (by
          show V m c main_v15 (ix3 (bOf (n + 1)) mm (colN ((n + 1) % 8) j)) = _; rw [h0]))
    · have ih := holds_at c n (Nat.lt_of_succ_lt h)
      have hb : bOf (n + 1) = bOf n := Fin.ext (by show (n + 1) / 8 % 4 = n / 8 % 4; omega)
      have hr : (n + 1) % 8 = n % 8 + 1 := by omega
      have hx0 : ∀ (q : Fin 100) (j : Fin 8192), (iblk m c 0 ⟨n + 1, h⟩ : Vec Ideal S1x100x8192 .f32) (ix3 (0 : Fin 1) q j)
          = V m c main_v14 (ix3 (bOf n) q (colN (n % 8 + 1) j)) := fun q j =>
        (iblk0_apply m c ⟨n + 1, h⟩ q j).trans (by
          show V m c main_v14 (ix3 (bOf (n + 1)) q (colN ((n + 1) % 8) j)) = _; rw [hb, hr])
      have hx1 : ∀ (mm : Fin 50) (j : Fin 8192), (iblk m c 1 ⟨n + 1, h⟩ : Vec Ideal S1x50x8192 .f32) (ix3 (0 : Fin 1) mm j)
          = V m c main_v15 (ix3 (bOf n) mm (colN (n % 8 + 1) j)) := fun mm j =>
        (iblk1_apply m c ⟨n + 1, h⟩ mm j).trans (by
          show V m c main_v15 (ix3 (bOf (n + 1)) mm (colN ((n + 1) % 8) j)) = _; rw [hb, hr])
      by_cases h1 : (n + 1) % 8 = 7
      · rw [outs_C m c ⟨n + 1, h⟩ h0 h1, hb, hr]
        exact holds_step _ _ _ _ _ _ _ ih hx0 hx1
      · rw [outs_B m c ⟨n + 1, h⟩ h0 h1, hb, hr]
        exact holds_step _ _ _ _ _ _ _ ih hx0 hx1

/-! ## From the written blocks to the array -/

/-- The mask + dice array of the flattened masks as the region finds them. -/
abbrev Gmd (c : Dev nD) : Buf (Elt Ideal) ((c : Thread nD τ).loc main_v16) :=
  fun i => maskDice (V m c main_v14) (V m c main_v15) (i 0) (i 1) (i 2)

/-- What the last point of a batch writes back is that batch's rows of the mask + dice array. -/
theorem flushed_eq (c : Dev nD) (t : Fin cfg0.N) (hf : (cfg0.win 2).flush t = true) :
    (dats m 0 c).flushed 2 t = ((cfg0.win 2).blk t).view.read (Elt Ideal) (Gmd m c) := by
  have hN : t.val < 32 := lt_of_lt_of_eq t.isLt (show cfg0.N = 32 from N_0)
  have h7 : t.val % 8 = 7 := (flush0_2 t).mp hf
  have h0 : ¬t.val % 8 = 0 := by omega
  have hh := holds_at m c t.val t.isLt
  rw [h7] at hh
  obtain ⟨i0, i1, i2⟩ := idx2 t
  show (cfg0.win 2).cut (grid0.coords t) ((dats m 0 c).after 2 t) = _
  rw [after0_2, out_C m c t h0 h7]
  funext y
  obtain ⟨u, q, mm, rfl⟩ : ∃ (u : Fin 1) (q : Fin 100) (mm : Fin 50), y = ix3 u q mm := ⟨y 0, y 1, y 2, eq_ix3 y⟩
  have hu : u.val = 0 := by omega
  have e0 : (((cfg0.win 2).blk t).view.emb (ix3 u q mm)) 0 = bOf t.val := Fin.ext (by
    show win0_2.index t (0 : Fin 3) * 1 + 1 * u.val = t.val / 8 % 4; rw [i0]; omega)
  have e1 : (((cfg0.win 2).blk t).view.emb (ix3 u q mm)) 1 = q := Fin.ext (by
    show win0_2.index t (1 : Fin 3) * 100 + 1 * q.val = q.val; rw [i1]; omega)
  have e2 : (((cfg0.win 2).blk t).view.emb (ix3 u q mm)) 2 = mm := Fin.ext (by
    show win0_2.index t (2 : Fin 3) * 50 + 1 * mm.val = mm.val; rw [i2]; omega)
  show outT (outsAt0 m c t.val t.isLt).2 (ix3 u q mm)
    = maskDice (V m c main_v14) (V m c main_v15) ((((cfg0.win 2).blk t).view.emb (ix3 u q mm)) 0)
        ((((cfg0.win 2).blk t).view.emb (ix3 u q mm)) 1) ((((cfg0.win 2).blk t).view.emb (ix3 u q mm)) 2)
  rw [e0, e1, e2]
  exact out_of_holds _ _ _ _ hh u q mm

/-- An index of the array is in point t's block iff each coordinate is in the block's range. -/
theorem mem_blk (t : Fin cfg0.N) (i : S4x100x50.Idx) :
    i ∈ ((cfg0.win 2).blk t).view.set ↔ ∀ a : Fin 3, win0_2.index t a * S1x100x50.size a ≤ (i a).val ∧ (i a).val < win0_2.index t a * S1x100x50.size a + S1x100x50.size a := by
  show i ∈ ((View.whole main_v16).slice (win0_2.rect t)).set ↔ _
  rw [View.set_slice_whole, Rect.mem_set_unit]
  exact Iff.rfl

/-- So the array ends holding the mask + dice array: batch b's rows are written by point 8b + 7. -/
theorem final (c : Dev nD) : (dats m 0 c).arrAt 2 cfg0.N = Gmd m c :=
  (dats m 0 c).arrAt_eq_of_cover 2 (Gmd m c) (flushed_eq m c) fun i => by
    have hb : (i 0).val < 4 := (i 0).isLt
    have hq : (i 1).val < 100 := (i 1).isLt
    have hm : (i 2).val < 50 := (i 2).isLt
    have hN : cfg0.N = 32 := N_0
    let t : Fin cfg0.N := ⟨8 * (i 0).val + 7, by omega⟩
    obtain ⟨i0, i1, i2⟩ := idx2 t
    have tv : t.val = 8 * (i 0).val + 7 := rfl
    refine ⟨t, (flush0_2 t).mpr (by rw [tv]; omega), ?_⟩
    rw [mem_blk]
    intro a
    match a with
    | ⟨0, _⟩ => show win0_2.index t (0 : Fin 3) * 1 ≤ (i 0).val ∧ (i 0).val < win0_2.index t (0 : Fin 3) * 1 + 1; rw [i0, tv]; omega
    | ⟨1, _⟩ => show win0_2.index t (1 : Fin 3) * 100 ≤ (i 1).val ∧ (i 1).val < win0_2.index t (1 : Fin 3) * 100 + 100; rw [i1]; omega
    | ⟨2, _⟩ => show win0_2.index t (2 : Fin 3) * 50 ≤ (i 2).val ∧ (i 2).val < win0_2.index t (2 : Fin 3) * 50 + 50; rw [i2]; omega

end Cert.KernelIdeal.KVal

end
-- ==== Proof.KRun.lean ====
/-
  The kernel's whole run, read: the result is the specification of what the region finds.

  Before the region the host computes the (negated) class cost CC and flattens the two mask arrays to X [4,100,65536]
  and T [4,50,65536]; the region leaves the mask + dice array of X and T; after it the host returns 1·CC + that array.
  The host's three values are, operation for operation, the reference's own class cost and flattened masks of the same
  arguments.
-/
import proofs.«154864_j29695403884993_1_alg».proof.Proof.KVal
import proofs.«154864_j29695403884993_1_alg».proof.Proof.Gen.ReferenceIdeal.Read
import Idealize.ShloMosaic.Lib.StableHlo.Run

set_option maxRecDepth 16384

noncomputable section

namespace Cert.KernelIdeal.KRun

open Cert.KernelIdeal Cert.KernelIdeal.Gen Cert.MaskDice
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The region finds the predicted masks flattened: the reference's own reshape of the same argument. -/
theorem V14_eq (c : Dev nD) : (V m c main_v14 : S4x100x65536.Idx → Ideal .f32)
    = Cert.ReferenceIdeal.Read.val_main_v14 (F := Ideal) (m ((c : Thread nD τ).loc main_arg1)) := by
  dsimp only [V, V0]
  simp only [hostOps0, hostOps0_1, hostOps0_2, List.flatten_cons, List.flatten_nil, List.append_nil, List.cons_append, List.nil_append]
  after_results
  rfl

/-- The region finds the target masks flattened: the reference's own reshape of the same argument. -/
theorem V15_eq (c : Dev nD) : (V m c main_v15 : S4x50x65536.Idx → Ideal .f32)
    = Cert.ReferenceIdeal.Read.val_main_v15 (F := Ideal) (m ((c : Thread nD τ).loc main_arg3)) := by
  dsimp only [V, V0]
  simp only [hostOps0, hostOps0_1, hostOps0_2, List.flatten_cons, List.flatten_nil, List.append_nil, List.cons_append, List.nil_append]
  after_results
  rfl

set_option maxHeartbeats 8000000 in
/-- The class cost the host computes before the region is the reference's own, operation for operation. -/
theorem V13_eq (c : Dev nD) : (V m c main_v13 : S4x100x50.Idx → Ideal .f32)
    = Cert.ReferenceIdeal.Read.val_main_v13 (F := Ideal) (m ((c : Thread nD τ).loc main_arg0)) (m ((c : Thread nD τ).loc main_arg2)) := by
  dsimp only [V, V0]
  simp only [hostOps0, hostOps0_1, hostOps0_2, List.flatten_cons, List.flatten_nil, List.append_nil, List.cons_append, List.nil_append]
  after_results_simp
  rfl

/-- After the region: 1 · CC + the mask + dice array. -/
theorem tail_eq (c : Dev nD) :
    Pipeline.afterTail₀ cfgs (dats m) 0 (V0 m) [hostOps1] c main_v19 = total (V m c main_v13) (V m c main_v14) (V m c main_v15) := by
  unfold Pipeline.afterTail₀
  show StableHlo.after hostOps1 _ (Proc.devRef .tc main_v19) = _
  after_results
  rw [Pipeline.withArrays_of_ne _ c (V0 m c) _ main_v13 (by exact (by decide : ∀ w, Pipeline.arrRef spec0 w ≠ main_v13))]
  have e16 : Pipeline.withArrays (cfgs 0).spec c (V0 m c) (fun w => (dats m 0 c).arrAt w (cfgs 0).N) (Proc.devRef .tc main_v16) = KVal.Gmd m c :=
    (Pipeline.withArrays_arr spec0 launch0.win.arr_inj c (V0 m c) _ 2).trans (KVal.final m c)
  rw [e16]
  rfl

/-- The run: the result at the specification, the four arguments unchanged. -/
theorem run : θ_run defs (onTc (τ := τ) (main (F := Ideal))) ⟨m, fun _ => 0, ρ⟩ fun r => ∀ c : Dev nD,
      r.2.mem ((c.tc : Thread nD τ).loc main_v19) = total (V m c main_v13) (V m c main_v14) (V m c main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KRun

end
-- ==== Proof.RefVal.lean ====
/-
  The reference's result, index by index, is the specification.

  Read one operation at a time, entry (b, q, m) of the reference's result is
    (1·CC + 1·(mean softplus − x·t / HW)) + 1·(1 − 2·σ(x)·t / ((Σσ(x) + Σt) + ε)),
  its sums taken over the whole rows X[b, q, ·] and T[b, m, ·] from a zero initial value, its sigmoid spelt
  1 / (1 + e^(−x)), its softplus guarded by a comparison of a value with itself.  On the extended reals the guard never
  fires, 1 / (1 + e^(−x)) is the sigmoid, 0 + s = s, 1 · s = s, and the outer sum re-associates: the specification.
-/
import proofs.«154864_j29695403884993_1_alg».proof.Proof.Gen.ReferenceIdeal.Read
import proofs.«154864_j29695403884993_1_alg».proof.Proof.Spec

noncomputable section

namespace Cert.ReferenceIdeal.RefValue

open Cert.ReferenceIdeal Cert.ReferenceIdeal.Gen Cert.ReferenceIdeal.Read Cert.MaskDice Idealize.ShloMosaic Idealize.ShloMosaic.ValueIdx

/-- The word 0x3F800000 is the real number one. -/
theorem one_eq : Ideal.ofBits .f32 0x3F800000#32 = 1 := by
  simp [Ideal.ofBits, Ideal.ieee, -EReal.coe_mul]; norm_num

/-- The reference's three terms, each times one, summed left to right, are the specification's 1·CC + (M + D). -/
theorem assemble (cc M D : EReal) : (one * cc + one * M) + one * D = one * cc + (M + D) := by
  unfold one; rw [one_eq]; simp only [one_mul]; exact add_assoc _ _ _

/-- The reference's softplus of one element. -/
theorem sp_ref (x : EReal) :
    Scalar.select (Ideal.cmp .une (x - Ideal.ofBits .f32 0x00000000#32) (x - Ideal.ofBits .f32 0x00000000#32)) (x + Ideal.ofBits .f32 0x00000000#32)
      (max x (Ideal.ofBits .f32 0x00000000#32) + Ideal.log1p (Ideal.exp (-(max (x - Ideal.ofBits .f32 0x00000000#32) (-(x - Ideal.ofBits .f32 0x00000000#32)))))) = sp x := by
  rw [Ideal.ofBits_zero_f32]
  have h : Ideal.cmp .une (x - 0) (x - 0) = 0#1 := by simp [Ideal.cmp]
  rw [h, select_zero, sub_zero]
  rfl

/-- The reference's sigmoid of one element, 1 / (1 + e^(−x)). -/
theorem sg_ref (x : EReal) :
    Ideal.div (Ideal.ofBits .f32 0x3F800000#32) (Ideal.ofBits .f32 0x3F800000#32 + Ideal.exp (-x)) = Ideal.logistic x := by
  rw [one_eq]; rfl

variable (b : Fin 4) (q : Fin 100) (mm : Fin 50) (k : Fin 65536)

theorem i17 : idx_main_v17 (idx_main_v21 (idx_main_v24 (ix3 b q mm))) k = ix3 b q k := by
  funext a; match a with | ⟨0, _⟩ => rfl | ⟨1, _⟩ => rfl | ⟨2, _⟩ => rfl
theorem i35 : idx_main_v35 (idx_main_v36 (idx_main_v39 (ix3 b q mm))) k = ix3 b q k := by
  funext a; match a with | ⟨0, _⟩ => rfl | ⟨1, _⟩ => rfl | ⟨2, _⟩ => rfl
theorem i37 : idx_main_v37 (idx_main_v38 (idx_main_v40 (ix3 b q mm))) k = ix3 b mm k := by
  funext a; match a with | ⟨0, _⟩ => rfl | ⟨1, _⟩ => rfl | ⟨2, _⟩ => rfl
theorem l20 : lidx_main_v20 (ix3 b q mm) k = ix3 b q k := by
  funext a; match a with | ⟨0, _⟩ => rfl | ⟨1, _⟩ => rfl | ⟨2, _⟩ => rfl
theorem r20 : ridx_main_v20 (ix3 b q mm) k = ix3 b mm k := by
  funext a; match a with | ⟨0, _⟩ => rfl | ⟨1, _⟩ => rfl | ⟨2, _⟩ => rfl
theorem l32 : lidx_main_v32 (ix3 b q mm) k = ix3 b q k := by
  funext a; match a with | ⟨0, _⟩ => rfl | ⟨1, _⟩ => rfl | ⟨2, _⟩ => rfl
theorem r32 : ridx_main_v32 (ix3 b q mm) k = ix3 b mm k := by
  funext a; match a with | ⟨0, _⟩ => rfl | ⟨1, _⟩ => rfl | ⟨2, _⟩ => rfl

/-- Entry (b, q, m) of the reference's result is the specification of the class cost and the flattened masks. -/
theorem ref_apply (x0 : (⟨S4x100x81, .f32⟩ : BufTy).Contents (Elt Ideal)) (x1 : (⟨S4x100x256x256, .f32⟩ : BufTy).Contents (Elt Ideal))
    (x2 : (⟨S4x50, .i32⟩ : BufTy).Contents (Elt Ideal)) (x3 : (⟨S4x50x256x256, .f32⟩ : BufTy).Contents (Elt Ideal)) :
    val_main_v54 (F := Ideal) x0 x1 x2 x3 (ix3 b q mm) = total (val_main_v13 x0 x2) (val_main_v14 x1) (val_main_v15 x3) (ix3 b q mm) := by
  simp only [val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_call1_v0_apply, val_main_call1_v1_apply, val_main_call1_v2_apply, val_main_call1_v3_apply, val_main_call1_v4_apply, val_main_call1_v5_apply, val_main_call1_v6_apply, val_main_call1_v7_apply, val_main_call1_v8_apply, val_main_call1_v9_apply, val_main_call1_v10_apply, val_main_call1_v11_apply, val_main_call1_cst_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply]
  simp only [i17, i35, i37, l20, r20, l32, r32]
  simp only [Ideal.addf_def, Ideal.subf_def, Ideal.mulf_def, Ideal.hostDivf_def, Ideal.maximumf_def, Ideal.hostNegf_def, Ideal.negf_def,
    Ideal.hostAbsf_def, Ideal.absf_def, Ideal.hostUnary_exp_def, Ideal.hostUnary_log1p_def, Ideal.cmpf_def, Ideal.ofBits_def]
  simp only [sp_ref, sg_ref]
  rw [Ideal.ofBits_zero_f32]
  simp only [zero_add]
  exact assemble _ _ _

/-- The reference's result is the specification. -/
theorem ref_eq (x0 : (⟨S4x100x81, .f32⟩ : BufTy).Contents (Elt Ideal)) (x1 : (⟨S4x100x256x256, .f32⟩ : BufTy).Contents (Elt Ideal))
    (x2 : (⟨S4x50, .i32⟩ : BufTy).Contents (Elt Ideal)) (x3 : (⟨S4x50x256x256, .f32⟩ : BufTy).Contents (Elt Ideal)) :
    val_main_v54 (F := Ideal) x0 x1 x2 x3 = total (val_main_v13 x0 x2) (val_main_v14 x1) (val_main_v15 x3) := by
  funext i
  obtain ⟨b, q, mm, rfl⟩ : ∃ (b : Fin 4) (q : Fin 100) (mm : Fin 50), i = ix3 b q mm := ⟨i 0, i 1, i 2, eq_ix3 i⟩
  exact ref_apply b q mm x0 x1 x2 x3

end Cert.ReferenceIdeal.RefValue

end
-- ==== Proof.lean ====
/-
  The claim: the Pallas mask + dice cost kernel, with the class cost added on the host, against the jnp reference.

  Both programs compute, at (b, q, m),
    1·CC(b,q,m) + [ (Σₖ softplus(xₖ))/HW − (Σₖ xₖ tₖ)/HW + 1 − 2 Σₖ σ(xₖ) tₖ / ((Σₖ σ(xₖ) + Σₖ tₖ) + ε) ],
  x = pred_masks[b, q] and t = tgt_masks[b, m] flattened to 65536 positions, CC the negated softmax probability gathered
  at the target ids.  The kernel accumulates the five sums over eight tiles of 8192 positions per batch (Proof/KVal.lean),
  the reference takes them whole (Proof/RefVal.lean); the class cost and the flattening are the same host operations
  on both sides (Proof/KRun.lean).  The two results are one function of arguments that agree.  No law used needs the
  inputs to be finite, so the precondition is never opened.  The three frames are the generated ones (the reference's is its
  generated run with the result dropped); the idealization rewrote nothing.
-/
import proofs.«154864_j29695403884993_1_alg».proof.Defs
import proofs.«154864_j29695403884993_1_alg».proof.Proof.Gen.Kernel
import proofs.«154864_j29695403884993_1_alg».proof.Proof.Gen.Kernel.Skeleton
import proofs.«154864_j29695403884993_1_alg».proof.Proof.Gen.Kernel.Launch
import proofs.«154864_j29695403884993_1_alg».proof.Proof.Gen.Kernel.Points
import proofs.«154864_j29695403884993_1_alg».proof.Proof.Gen.Kernel.Frame
import proofs.«154864_j29695403884993_1_alg».proof.Proof.Gen.KernelIdeal
import proofs.«154864_j29695403884993_1_alg».proof.Proof.Gen.KernelIdeal.Skeleton
import proofs.«154864_j29695403884993_1_alg».proof.Proof.Gen.KernelIdeal.Launch
import proofs.«154864_j29695403884993_1_alg».proof.Proof.Gen.KernelIdeal.Points
import proofs.«154864_j29695403884993_1_alg».proof.Proof.Gen.KernelIdeal.Frame
import proofs.«154864_j29695403884993_1_alg».proof.Proof.Gen.ReferenceIdeal
import proofs.«154864_j29695403884993_1_alg».proof.Proof.Gen.ReferenceIdeal.Run
import proofs.«154864_j29695403884993_1_alg».proof.Proof.Gen.ReferenceIdeal.Read
import proofs.«154864_j29695403884993_1_alg».proof.Proof.Gen.Pre_finite_inputs
import proofs.«154864_j29695403884993_1_alg».proof.Proof.KRun
import proofs.«154864_j29695403884993_1_alg».proof.Proof.RefVal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both results are the specification of the same class cost and flattened masks. -/
theorem algebraic : Cert.algebraic_KernelIdeal_ReferenceIdeal := by
  intro m ρ m' ρ' _ hagree
  refine ⟨fun c => Cert.MaskDice.total (Cert.KernelIdeal.Gen.V m c Cert.KernelIdeal.main_v13)
    (Cert.KernelIdeal.Gen.V m c Cert.KernelIdeal.main_v14) (Cert.KernelIdeal.Gen.V m c Cert.KernelIdeal.main_v15),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v54 m' c = Cert.MaskDice.total (Cert.KernelIdeal.Gen.V m c Cert.KernelIdeal.main_v13)
    (Cert.KernelIdeal.Gen.V m c Cert.KernelIdeal.main_v14) (Cert.KernelIdeal.Gen.V m c Cert.KernelIdeal.main_v15)
  rw [Cert.ReferenceIdeal.Read.val_main_v54_eq, Cert.ReferenceIdeal.RefValue.ref_eq, (hagree c).1, (hagree c).2.1,
    (hagree c).2.2.1, (hagree c).2.2.2, Cert.KernelIdeal.KRun.V13_eq, Cert.KernelIdeal.KRun.V14_eq, Cert.KernelIdeal.KRun.V15_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
